-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S100000x128 : Shape := ⟨2, ![100000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn_part1 {F : FTy → Type} [FloatOps F] (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  main_v18

def fn {F : FTy → Type} [FloatOps F] (main_arg0 : FVec F S16384x128 .f32) (main_arg1 : FVec F S16384x128 .f32) (main_arg2 : FVec F S100000x128 .f32) (main_arg3 : FVec F S100000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_v13 main_v16
-- ==== Kernel.lean ====
abbrev S16384x128 : Shape := ⟨2, ![16384, 128]⟩
abbrev S100000x128 : Shape := ⟨2, ![100000, 128]⟩
abbrev S_ : Shape := ⟨0, ![]⟩
abbrev S512x128 : Shape := ⟨2, ![512, 128]⟩
abbrev S2608x128 : Shape := ⟨2, ![2608, 128]⟩
abbrev S8x128 : Shape := ⟨2, ![8, 128]⟩

abbrev nBuf : Table → Nat
  | .hbm => 6
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S100000x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  ![v2.toNat, 0]
def k0_off3 (i : grid0.Coords) : Fin 2 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2608_i32 : BitVec 32 := 2608#32
  let v3 : BitVec 32 := Scalar.muli v1 c2608_i32
  let v4 : BitVec 32 := Scalar.addi c16384_i32 v3
  let c0_i32_3 : BitVec 32 := 0#32
  ![v4.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v15 : BitVec 1 := Scalar.cmpi .slt v1 c20_i32
  let v16 : BitVec 32 := Scalar.extui v15
  let c0_i32_7 : BitVec 32 := 0#32
  let v17 : BitVec 1 := Scalar.cmpi .ne v16 c0_i32_7
  v17

def k0_off4 (i : grid0.Coords) : Fin 2 → Nat :=
  let c99840_i32 : BitVec 32 := 99840#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  let v6 : BitVec 32 := Scalar.addi c99840_i32 v5
  let c0_i32_16 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  hcc0_scratch0 : 0 + S_.numel ≤ 6
  hcc0_scratch1 : 1 + S_.numel ≤ 6
  hcc0_scratch2 : 2 + S_.numel ≤ 6
  hcc0_scratch3 : 3 + S_.numel ≤ 6
  hcc0_scratch4 : 4 + S_.numel ≤ 6
  hcc0_scratch5 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512x128.size a ≤ S100000x128.size a
  k0_off2_inb : ∀ i : grid0.Coords, ∀ a, (k0_off2 i) a + S512x128.size a ≤ S16384x128.size a
  k0_off3_inb : ∀ i : grid0.Coords, ∀ a, (k0_off3 i) a + S2608x128.size a ≤ S100000x128.size a
  k0_off4_inb : ∀ i : grid0.Coords, ∀ (k0_h1 : k0_cond1 i = 1#1), ∀ a, (k0_off4 i) a + S8x128.size a ≤ S100000x128.size a

variable [Facts₀]

abbrev cc0_scratch0 : DmaSems sig S_ := SemArray.consecutive 0 S_ hcc0_scratch0
abbrev cc0_scratch1 : DmaSems sig S_ := SemArray.consecutive 1 S_ hcc0_scratch1
abbrev cc0_scratch2 : DmaSems sig S_ := SemArray.consecutive 2 S_ hcc0_scratch2
abbrev cc0_scratch3 : DmaSems sig S_ := SemArray.consecutive 3 S_ hcc0_scratch3
abbrev cc0_scratch4 : DmaSems sig S_ := SemArray.consecutive 4 S_ hcc0_scratch4
abbrev cc0_scratch5 : DmaSems sig S_ := SemArray.consecutive 5 S_ hcc0_scratch5

class Facts : Prop extends Facts₀ where

variable [Facts]
-- ==== ReferenceIdeal.lean ====
abbrev S16384x128 : Shape := ⟨2, ![16384, 128]⟩
abbrev S100000x128 : Shape := ⟨2, ![100000, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S100000x128, .f32⟩
  | .hbm, ⟨3, _⟩ => ⟨S100000x128, .f32⟩
  | .hbm, ⟨4, _⟩ => ⟨S_, .i32⟩
  | .hbm, ⟨5, _⟩ => ⟨S_, .i32⟩
  | .hbm, ⟨6, _⟩ => ⟨S100000x128, .f32⟩
  | .hbm, ⟨7, _⟩ => ⟨S_, .i32⟩
  | .hbm, ⟨8, _⟩ => ⟨S_, .i32⟩
  | .hbm, ⟨9, _⟩ => ⟨S100000x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_c_2 : Ref sig .tc := ⟨.hbm, 8, rfl⟩
abbrev main_v1 : Ref sig .tc := ⟨.hbm, 9, rfl⟩

abbrev nD : Nat := 1
abbrev τ : Topo := Topo.v7x

variable {F : FTy → Type} [FloatOps F]

class Facts₀ : Prop where
  updateFits_S100000x128_S16384x128 : S100000x128.Slices (fun _ => 0) S16384x128
  h_S_ : 0 < S_.numel

variable [Facts₀]

class Facts : Prop extends Facts₀ where

variable [Facts]
-- ==== Proof.BankSpec.lean ====
import Idealize.ShloMosaic.Lib.Pipeline.Value

/-!
  The function both programs compute, on any values: the memory bank with its first 16384 rows
  replaced, row for row, by the batch of new embeddings; every later row of the bank kept.
-/

namespace Cert.Proof.BankSpec

open Idealize.ShloMosaic

/-- The bank's shape and the batch's. -/
abbrev SB : Shape := ⟨2, ![100000, 128]⟩
abbrev SE : Shape := ⟨2, ![16384, 128]⟩

theorem fits : SB.Slices (fun _ => 0) SE := by decide

/-- The bank `x` with the batch `u` laid over its rows `0 … 16383`. -/
def bankUpdate {α : Type} (x : SB.Idx → α) (u : SE.Idx → α) : SB.Idx → α :=
  updateSlice x u (fun _ => 0) fits

/-- In the first 16384 rows the result is the batch, at the same row and column. -/
theorem bankUpdate_low {α : Type} (x : SB.Idx → α) (u : SE.Idx → α) (i : SB.Idx) (j : SE.Idx)
    (h0 : (j 0).val = (i 0).val) (h1 : (j 1).val = (i 1).val) : bankUpdate x u i = u j := by
  have hin : ∀ a : Fin SB.rank, (fun _ => 0 : Fin SB.rank → Nat) a ≤ (i a).val ∧ (i a).val < (fun _ => 0 : Fin SB.rank → Nat) a + SE.size (a.cast fits.1.symm) := by
    intro a
    match a with
    | ⟨0, _⟩ => exact ⟨Nat.zero_le _, by have hj : (j 0).val < 16384 := (j 0).isLt; show (i 0).val < 0 + 16384; omega⟩
    | ⟨1, _⟩ => exact ⟨Nat.zero_le _, by have hi : (i 1).val < 128 := (i 1).isLt; show (i 1).val < 0 + 128; omega⟩
  unfold bankUpdate updateSlice
  rw [dif_pos hin]
  congr 1
  funext b
  apply Fin.ext
  match b with
  | ⟨0, _⟩ => show (i 0).val - 0 = (j 0).val; omega
  | ⟨1, _⟩ => show (i 1).val - 0 = (j 1).val; omega

/-- From row 16384 on the result is the bank. -/
theorem bankUpdate_high {α : Type} (x : SB.Idx → α) (u : SE.Idx → α) (i : SB.Idx) (h : 16384 ≤ (i 0).val) :
    bankUpdate x u i = x i := by
  unfold bankUpdate updateSlice
  rw [dif_neg]
  intro hin
  have h2 : (i 0).val < 0 + 16384 := (hin 0).2
  omega

/-- The host's `dynamic_update_slice` at start indices zero is that function. -/
theorem dynamicUpdateSlice_zero {α : Type} (x : SB.Idx → α) (u : SE.Idx → α) (start : Fin SB.rank → Int)
    (hs : ∀ a, start a = 0) (h : SB.Slices (fun _ => 0) SE) : Host.dynamicUpdateSlice x u start h = bankUpdate x u := by
  unfold bankUpdate
  refine Host.dynamicUpdateSlice_eq_updateSlice x u start h (fun _ => 0) (fun a => ?_) fits
  rw [hs a]
  match a with
  | ⟨0, _⟩ => rfl
  | ⟨1, _⟩ => rfl

end Cert.Proof.BankSpec
-- ==== Proof.LibLanded.lean ====
import Idealize.ShloMosaic.Lib.Writes

/-!
  A transfer that lands a whole block: the destination view's elements, after one unmasked write of
  the block `w` through the whole of the view over any prior contents, are held at ANY contents `g`
  that the view reads as `w`. It turns "what the copy wrote" into "the final array, on these
  elements", the form in which disjoint pieces of one array join.
-/

noncomputable section

namespace Idealize.ShloMosaic

open Idealize.SL
open Idealize.SL.BI (sProp)
open scoped Idealize.SL.BI
open Idealize.SL.RA

section Landed

variable {nD : Nat} {τ : Topo} {sig : RefSig} {Ix : Type} [DecidableEq Ix]
variable {Val : EltTy → Type} {Name : Type} [DecidableEq Name]
variable {U : Type} [URA U] {Lvl : Type}
variable (c : Thread nD τ) {sp : Space} {s : Shape} {e : EltTy}

local notation "𝕄" => MT nD τ sig Ix Val Name U Lvl

/-- The elements under a view, after the block `w` is written through the whole view, are the
    points-to at any contents the view reads as `w`. -/
theorem View.pointsTo_writes_whole_congr (v : View sig c.2.kind sp s e) (q : PosShare TreeShare) (fd g : Buf Val (v.loc c))
    (w : (Rect.whole s).shape.Idx → Val e) (h : ∀ x : s.Idx, v.read Val g x = w x) :
    (v.loc c ↦[v.set]{q} v.writes Val fd [⟨Rect.whole s, w⟩] : sProp 𝕄) = v.loc c ↦[v.set]{q} g :=
  pointsTo_congr fun i hi => by
    obtain ⟨x, -, rfl⟩ := Finset.mem_map.mp hi
    have h1 := View.read_writes_cons_emb v fd (Rect.whole s) w [] x
    rw [Rect.emb_whole_apply] at h1
    have h2 := h x
    rw [View.read_apply] at h1 h2
    exact (cast_inj _).mp (h1.trans h2.symm)

end Landed

end Idealize.ShloMosaic

end
-- ==== Proof.KernelTile.lean ====
import proofs.«210836_g79860621902670_cont_9to1_m_360_5_alg».proof.Defs
import proofs.«210836_g79860621902670_cont_9to1_m_360_5_alg».proof.Proof.BankSpec
import proofs.«210836_g79860621902670_cont_9to1_m_360_5_alg».proof.Proof.LibLanded
import Idealize.ShloMosaic.Lib.SparseCore.Launch
import Idealize.ShloMosaic.Lib.StableHlo.Run
import Idealize.ShloMosaic.Lib.Pipeline.Kit
import Idealize.ShloMosaic.Lib.Tactic
import proofs.«210836_g79860621902670_cont_9to1_m_360_5_alg».proof.Proof.Gen.Kernel
import proofs.«210836_g79860621902670_cont_9to1_m_360_5_alg».proof.Proof.Gen.Kernel.Skeleton

/-!
  One vector subcore's share of the bank update, for worker number `w = 2·s + c` (subcore `s` of
  SparseCore `c`): rows `512·w … 512·w + 511` of each output take the same rows of the new
  embeddings; rows `16384 + 2608·w …` (2608 of them) and, for `w < 20`, rows `99840 + 8·w …` (8 of
  them) take the same rows of the old bank. Each copy has a semaphore of its own and nothing touches a
  copy's ends while it is in flight, so every copy lands exactly its source rows; on each piece that is
  the updated bank `bankUpdate bank batch`, because rows below 16384 of the update are the batch and
  rows from 16384 on are the bank.
-/

noncomputable section

namespace Cert.Proof.KernelRun

open Cert.Kernel Cert.Kernel.Gen Cert.Proof.BankSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and the pieces a vector subcore moves -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev o0Loc (d : Dev nD) : Loc nD τ sig := (SparseCore.T d).loc main_v0_0
abbrev o1Loc (d : Dev nD) : Loc nD τ sig := (SparseCore.T d).loc main_v0_1

abbrev A0 : Memref sig .scVector .hbm S16384x128 .f32 := Memref.whole main_arg0_scv
abbrev A1 : Memref sig .scVector .hbm S16384x128 .f32 := Memref.whole main_arg1_scv
abbrev A2 : Memref sig .scVector .hbm S100000x128 .f32 := Memref.whole main_arg2_scv
abbrev A3 : Memref sig .scVector .hbm S100000x128 .f32 := Memref.whole main_arg3_scv
abbrev O0 : Memref sig .scVector .hbm S100000x128 .f32 := Memref.whole main_v0_0_scv
abbrev O1 : Memref sig .scVector .hbm S100000x128 .f32 := Memref.whole main_v0_1_scv

/-- The output rows that take the new embeddings; the rows of the batch they come from; the rows of the bank copied
    through in the big share; and, for the first twenty workers, the eight leftover rows. -/
abbrev rE (L : grid0.Coords) : Rect S100000x128 := Rect.unit (s := S100000x128) (k0_off1 L) S512x128.size (k0_off1_inb L)
abbrev rS (L : grid0.Coords) : Rect S16384x128 := Rect.unit (s := S16384x128) (k0_off2 L) S512x128.size (k0_off2_inb L)
abbrev rT (L : grid0.Coords) : Rect S100000x128 := Rect.unit (s := S100000x128) (k0_off3 L) S2608x128.size (k0_off3_inb L)
abbrev rR (L : grid0.Coords) (h : k0_cond1 L = 1#1) : Rect S100000x128 := Rect.unit (s := S100000x128) (k0_off4 L) S8x128.size (k0_off4_inb L h)

/-- The leftover rows of worker `L` as a set of the bank's indices, whether or not the worker has any: past worker 19 the
    rows would lie beyond the bank, and the set is empty. -/
def setR (L : grid0.Coords) : Finset S100000x128.Idx :=
  Finset.univ.filter fun i => (k0_off4 L) 0 ≤ (i 0).val ∧ (i 0).val < (k0_off4 L) 0 + 8

/-- The worker's number decides whether it has leftover rows. -/
theorem cond_iff : ∀ L : grid0.Coords, k0_cond1 L = 1#1 ↔ 2 * (L 1).val + (L 0).val < 20 := by decide +kernel

theorem setR_eq (L : grid0.Coords) (hc : k0_cond1 L = 1#1) : setR L = (rR L hc).set := by
  ext i
  rw [setR, Finset.mem_filter, Rect.mem_set_unit]
  constructor
  · rintro ⟨-, h⟩ a
    match a with
    | ⟨0, _⟩ => exact h
    | ⟨1, _⟩ =>
      have e : (k0_off4 L) 1 = 0 := by rw [k0_off4_eq]; rfl
      have hi : (i 1).val < 128 := (i 1).isLt
      show (k0_off4 L) 1 ≤ (i 1).val ∧ (i 1).val < (k0_off4 L) 1 + 128
      omega
  · intro h
    exact ⟨Finset.mem_univ _, h 0⟩

theorem setR_empty (L : grid0.Coords) (hc : ¬ k0_cond1 L = 1#1) : setR L = ∅ := by
  have hw := (cond_iff L).not.mp hc
  ext i
  rw [setR, Finset.mem_filter]
  have e : (k0_off4 L) 0 = 16 * (L 1).val + 8 * (L 0).val + 99840 := by rw [k0_off4_eq]; rfl
  have hi : (i 0).val < 100000 := (i 0).isLt
  constructor
  · rintro ⟨-, h⟩; omega
  · intro h; exact absurd h (Finset.notMem_empty _)

/-! ## The value on each piece: the update is the batch below row 16384 and the bank from there on -/

theorem lowE {α : Type} (L : grid0.Coords) (x : S100000x128.Idx → α) (u : S16384x128.Idx → α) (y : S512x128.Idx) :
    bankUpdate x u ((rE L).emb y) = u ((rS L).emb y) := by
  refine bankUpdate_low x u _ _ ?_ ?_
  · show (k0_off2 L) 0 + 1 * (y 0).val = (k0_off1 L) 0 + 1 * (y 0).val
    rw [k0_off1_eq, k0_off2_eq]
  · show (k0_off2 L) 1 + 1 * (y 1).val = (k0_off1 L) 1 + 1 * (y 1).val
    rw [k0_off1_eq, k0_off2_eq]

theorem highT {α : Type} (L : grid0.Coords) (x : S100000x128.Idx → α) (u : S16384x128.Idx → α) (y : S2608x128.Idx) :
    bankUpdate x u ((rT L).emb y) = x ((rT L).emb y) := by
  refine bankUpdate_high x u _ ?_
  show 16384 ≤ (k0_off3 L) 0 + 1 * (y 0).val
  have e : (k0_off3 L) 0 = 5216 * (L 1).val + 2608 * (L 0).val + 16384 := by rw [k0_off3_eq]; rfl
  omega

theorem highR {α : Type} (L : grid0.Coords) (hc : k0_cond1 L = 1#1) (x : S100000x128.Idx → α) (u : S16384x128.Idx → α) (y : S8x128.Idx) :
    bankUpdate x u ((rR L hc).emb y) = x ((rR L hc).emb y) := by
  refine bankUpdate_high x u _ ?_
  show 16384 ≤ (k0_off4 L) 0 + 1 * (y 0).val
  have e : (k0_off4 L) 0 = 16 * (L 1).val + 8 * (L 0).val + 99840 := by rw [k0_off4_eq]; rfl
  omega

/-- The two results: each bank with its batch laid over the first 16384 rows. -/
def G0 (d : Dev nD) : Buf (Elt F) (o0Loc d) := bankUpdate (m (a2Loc d) : S100000x128.Idx → Elt F .f32) (m (a0Loc d) : S16384x128.Idx → Elt F .f32)
def G1 (d : Dev nD) : Buf (Elt F) (o1Loc d) := bankUpdate (m (a3Loc d) : S100000x128.Idx → Elt F .f32) (m (a1Loc d) : S16384x128.Idx → Elt F .f32)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A slice of an array held by exactly its own elements, as the subcore addresses it. -/
abbrev own {S : Shape} (M : Memref sig .scVector .hbm S .f32) (f : Buf (Elt F) (M.view.loc (thr d L))) : sProp 𝕄 :=
  M.view.loc (thr d L) ↦[M.view.set]{fullShare} f

abbrev cell (k : DmaSems sig S_) : GSem nD τ sig := (thr d L, .dma k.sem)

/-- A slice of a whole array, held by its own elements, is the array's points-to on the rectangle's elements. -/
theorem own_A0 (r : Rect S16384x128) (hr : ∀ a, r.stride a = 1) (f : Buf (Elt F) (a0Loc d)) :
    own d L (A0.slice r hr) f = (a0Loc d ↦[r.set]{fullShare} f : sProp 𝕄) := by
  show ((a0Loc d) ↦[((View.whole main_arg0_scv).slice r).set]{fullShare} f : sProp 𝕄) = _
  rw [View.set_slice_whole]
theorem own_A1 (r : Rect S16384x128) (hr : ∀ a, r.stride a = 1) (f : Buf (Elt F) (a1Loc d)) :
    own d L (A1.slice r hr) f = (a1Loc d ↦[r.set]{fullShare} f : sProp 𝕄) := by
  show ((a1Loc d) ↦[((View.whole main_arg1_scv).slice r).set]{fullShare} f : sProp 𝕄) = _
  rw [View.set_slice_whole]
theorem own_A2 (r : Rect S100000x128) (hr : ∀ a, r.stride a = 1) (f : Buf (Elt F) (a2Loc d)) :
    own d L (A2.slice r hr) f = (a2Loc d ↦[r.set]{fullShare} f : sProp 𝕄) := by
  show ((a2Loc d) ↦[((View.whole main_arg2_scv).slice r).set]{fullShare} f : sProp 𝕄) = _
  rw [View.set_slice_whole]
theorem own_A3 (r : Rect S100000x128) (hr : ∀ a, r.stride a = 1) (f : Buf (Elt F) (a3Loc d)) :
    own d L (A3.slice r hr) f = (a3Loc d ↦[r.set]{fullShare} f : sProp 𝕄) := by
  show ((a3Loc d) ↦[((View.whole main_arg3_scv).slice r).set]{fullShare} f : sProp 𝕄) = _
  rw [View.set_slice_whole]
theorem own_O0 (r : Rect S100000x128) (hr : ∀ a, r.stride a = 1) (f : Buf (Elt F) (o0Loc d)) :
    own d L (O0.slice r hr) f = (o0Loc d ↦[r.set]{fullShare} f : sProp 𝕄) := by
  show ((o0Loc d) ↦[((View.whole main_v0_0_scv).slice r).set]{fullShare} f : sProp 𝕄) = _
  rw [View.set_slice_whole]
theorem own_O1 (r : Rect S100000x128) (hr : ∀ a, r.stride a = 1) (f : Buf (Elt F) (o1Loc d)) :
    own d L (O1.slice r hr) f = (o1Loc d ↦[r.set]{fullShare} f : sProp 𝕄) := by
  show ((o1Loc d) ↦[((View.whole main_v0_1_scv).slice r).set]{fullShare} f : sProp 𝕄) = _
  rw [View.set_slice_whole]

theorem readE0 (x : S512x128.Idx) :
    (O0.slice (rE L) (fun _ => rfl)).view.read (Elt F) (G0 m d) x = (A0.slice (rS L) (fun _ => rfl)).view.read (Elt F) (m (a0Loc d)) x :=
  ((View.read_apply _ _).trans (cast_eq _ _)).trans ((lowE L _ _ x).trans ((View.read_apply _ _).trans (cast_eq _ _)).symm)
theorem readT0 (x : S2608x128.Idx) :
    (O0.slice (rT L) (fun _ => rfl)).view.read (Elt F) (G0 m d) x = (A2.slice (rT L) (fun _ => rfl)).view.read (Elt F) (m (a2Loc d)) x :=
  ((View.read_apply _ _).trans (cast_eq _ _)).trans ((highT L _ _ x).trans ((View.read_apply _ _).trans (cast_eq _ _)).symm)
theorem readR0 (hc : k0_cond1 L = 1#1) (x : S8x128.Idx) :
    (O0.slice (rR L hc) (fun _ => rfl)).view.read (Elt F) (G0 m d) x = (A2.slice (rR L hc) (fun _ => rfl)).view.read (Elt F) (m (a2Loc d)) x :=
  ((View.read_apply _ _).trans (cast_eq _ _)).trans ((highR L hc _ _ x).trans ((View.read_apply _ _).trans (cast_eq _ _)).symm)

/-- What the copies land, piece by piece, is the updated bank on that piece. -/
theorem pieceE0 (w : S512x128.Idx → Elt F .f32) (hw : w = (A0.slice (rS L) (fun _ => rfl)).view.read (Elt F) (m (a0Loc d))) :
    own d L (O0.slice (rE L) (fun _ => rfl)) ((O0.slice (rE L) (fun _ => rfl)).view.writes (Elt F) (m (o0Loc d)) [⟨Rect.whole _, w⟩])
      = (o0Loc d ↦[(rE L).set]{fullShare} G0 m d : sProp 𝕄) := by
  subst hw
  refine (View.pointsTo_writes_whole_congr (thr d L) (O0.slice (rE L) (fun _ => rfl)).view fullShare _ (G0 m d) _ (readE0 m d L)).trans ?_
  exact own_O0 d L (rE L) _ _
theorem pieceT0 (w : S2608x128.Idx → Elt F .f32) (hw : w = (A2.slice (rT L) (fun _ => rfl)).view.read (Elt F) (m (a2Loc d))) :
    own d L (O0.slice (rT L) (fun _ => rfl)) ((O0.slice (rT L) (fun _ => rfl)).view.writes (Elt F) (m (o0Loc d)) [⟨Rect.whole _, w⟩])
      = (o0Loc d ↦[(rT L).set]{fullShare} G0 m d : sProp 𝕄) := by
  subst hw
  refine (View.pointsTo_writes_whole_congr (thr d L) (O0.slice (rT L) (fun _ => rfl)).view fullShare _ (G0 m d) _ (readT0 m d L)).trans ?_
  exact own_O0 d L (rT L) _ _
theorem pieceR0 (hc : k0_cond1 L = 1#1) (w : S8x128.Idx → Elt F .f32) (hw : w = (A2.slice (rR L hc) (fun _ => rfl)).view.read (Elt F) (m (a2Loc d))) :
    own d L (O0.slice (rR L hc) (fun _ => rfl)) ((O0.slice (rR L hc) (fun _ => rfl)).view.writes (Elt F) (m (o0Loc d)) [⟨Rect.whole _, w⟩])
      = (o0Loc d ↦[setR L]{fullShare} G0 m d : sProp 𝕄) := by
  subst hw
  refine (View.pointsTo_writes_whole_congr (thr d L) (O0.slice (rR L hc) (fun _ => rfl)).view fullShare _ (G0 m d) _ (readR0 m d L hc)).trans ?_
  rw [setR_eq L hc]
  exact own_O0 d L (rR L hc) _ _

theorem readE1 (x : S512x128.Idx) :
    (O1.slice (rE L) (fun _ => rfl)).view.read (Elt F) (G1 m d) x = (A1.slice (rS L) (fun _ => rfl)).view.read (Elt F) (m (a1Loc d)) x :=
  ((View.read_apply _ _).trans (cast_eq _ _)).trans ((lowE L _ _ x).trans ((View.read_apply _ _).trans (cast_eq _ _)).symm)
theorem readT1 (x : S2608x128.Idx) :
    (O1.slice (rT L) (fun _ => rfl)).view.read (Elt F) (G1 m d) x = (A3.slice (rT L) (fun _ => rfl)).view.read (Elt F) (m (a3Loc d)) x :=
  ((View.read_apply _ _).trans (cast_eq _ _)).trans ((highT L _ _ x).trans ((View.read_apply _ _).trans (cast_eq _ _)).symm)
theorem readR1 (hc : k0_cond1 L = 1#1) (x : S8x128.Idx) :
    (O1.slice (rR L hc) (fun _ => rfl)).view.read (Elt F) (G1 m d) x = (A3.slice (rR L hc) (fun _ => rfl)).view.read (Elt F) (m (a3Loc d)) x :=
  ((View.read_apply _ _).trans (cast_eq _ _)).trans ((highR L hc _ _ x).trans ((View.read_apply _ _).trans (cast_eq _ _)).symm)

/-- What the copies land, piece by piece, is the updated bank on that piece. -/
theorem pieceE1 (w : S512x128.Idx → Elt F .f32) (hw : w = (A1.slice (rS L) (fun _ => rfl)).view.read (Elt F) (m (a1Loc d))) :
    own d L (O1.slice (rE L) (fun _ => rfl)) ((O1.slice (rE L) (fun _ => rfl)).view.writes (Elt F) (m (o1Loc d)) [⟨Rect.whole _, w⟩])
      = (o1Loc d ↦[(rE L).set]{fullShare} G1 m d : sProp 𝕄) := by
  subst hw
  refine (View.pointsTo_writes_whole_congr (thr d L) (O1.slice (rE L) (fun _ => rfl)).view fullShare _ (G1 m d) _ (readE1 m d L)).trans ?_
  exact own_O1 d L (rE L) _ _
theorem pieceT1 (w : S2608x128.Idx → Elt F .f32) (hw : w = (A3.slice (rT L) (fun _ => rfl)).view.read (Elt F) (m (a3Loc d))) :
    own d L (O1.slice (rT L) (fun _ => rfl)) ((O1.slice (rT L) (fun _ => rfl)).view.writes (Elt F) (m (o1Loc d)) [⟨Rect.whole _, w⟩])
      = (o1Loc d ↦[(rT L).set]{fullShare} G1 m d : sProp 𝕄) := by
  subst hw
  refine (View.pointsTo_writes_whole_congr (thr d L) (O1.slice (rT L) (fun _ => rfl)).view fullShare _ (G1 m d) _ (readT1 m d L)).trans ?_
  exact own_O1 d L (rT L) _ _
theorem pieceR1 (hc : k0_cond1 L = 1#1) (w : S8x128.Idx → Elt F .f32) (hw : w = (A3.slice (rR L hc) (fun _ => rfl)).view.read (Elt F) (m (a3Loc d))) :
    own d L (O1.slice (rR L hc) (fun _ => rfl)) ((O1.slice (rR L hc) (fun _ => rfl)).view.writes (Elt F) (m (o1Loc d)) [⟨Rect.whole _, w⟩])
      = (o1Loc d ↦[setR L]{fullShare} G1 m d : sProp 𝕄) := by
  subst hw
  refine (View.pointsTo_writes_whole_congr (thr d L) (O1.slice (rR L hc) (fun _ => rfl)).view fullShare _ (G1 m d) _ (readR1 m d L hc)).trans ?_
  rw [setR_eq L hc]
  exact own_O1 d L (rR L hc) _ _

end Tile

end Cert.Proof.KernelRun

end
-- ==== Proof.KernelBody.lean ====
import proofs.«210836_g79860621902670_cont_9to1_m_360_5_alg».proof.Proof.KernelTile

/-!
  The task of one vector subcore, run: from its pieces of the six arrays (the batch and bank rows it
  reads, the output rows it writes, at their launch contents) and its six semaphores at zero, the four
  copies start, the two leftover copies start and are waited for where the worker has leftover rows, the
  four waits return; each output piece then holds the updated bank, the input pieces are unchanged,
  the semaphores are back at zero.
-/

noncomputable section

namespace Cert.Proof.KernelRun

open Cert.Kernel Cert.Kernel.Gen Cert.Proof.BankSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

/-- The leftover pieces, stated on `setR`, as the subcore addresses them where it has leftover rows; -/
theorem ownR_A2 (hc : k0_cond1 L = 1#1) (f : Buf (Elt F) (a2Loc d)) :
    own d L (A2.slice (rR L hc) (fun _ => rfl)) f = (a2Loc d ↦[setR L]{fullShare} f : sProp 𝕄) := by
  rw [setR_eq L hc]; exact own_A2 d L (rR L hc) _ _
theorem ownR_A3 (hc : k0_cond1 L = 1#1) (f : Buf (Elt F) (a3Loc d)) :
    own d L (A3.slice (rR L hc) (fun _ => rfl)) f = (a3Loc d ↦[setR L]{fullShare} f : sProp 𝕄) := by
  rw [setR_eq L hc]; exact own_A3 d L (rR L hc) _ _
theorem ownR_O0 (hc : k0_cond1 L = 1#1) (f : Buf (Elt F) (o0Loc d)) :
    own d L (O0.slice (rR L hc) (fun _ => rfl)) f = (o0Loc d ↦[setR L]{fullShare} f : sProp 𝕄) := by
  rw [setR_eq L hc]; exact own_O0 d L (rR L hc) _ _
theorem ownR_O1 (hc : k0_cond1 L = 1#1) (f : Buf (Elt F) (o1Loc d)) :
    own d L (O1.slice (rR L hc) (fun _ => rfl)) f = (o1Loc d ↦[setR L]{fullShare} f : sProp 𝕄) := by
  rw [setR_eq L hc]; exact own_O1 d L (rR L hc) _ _
/-- and where it has none: no element, so any contents. -/
theorem noneR_O0 (hc : ¬ k0_cond1 L = 1#1) (f g : Buf (Elt F) (o0Loc d)) :
    (o0Loc d ↦[setR L]{fullShare} f : sProp 𝕄) = (o0Loc d ↦[setR L]{fullShare} g) :=
  pointsTo_congr fun i hi => absurd (setR_empty L hc ▸ hi) (Finset.notMem_empty _)
theorem noneR_O1 (hc : ¬ k0_cond1 L = 1#1) (f g : Buf (Elt F) (o1Loc d)) :
    (o1Loc d ↦[setR L]{fullShare} f : sProp 𝕄) = (o1Loc d ↦[setR L]{fullShare} g) :=
  pointsTo_congr fun i hi => absurd (setR_empty L hc ▸ hi) (Finset.notMem_empty _)

/-- What worker `L` holds of the six arrays: its rows of the two batches and of the two banks (big share and leftover
    rows) at the launch contents, its rows of the two outputs at `g0`, `g1`. -/
def res (g0 : Buf (Elt F) (o0Loc d)) (g1 : Buf (Elt F) (o1Loc d)) : sProp 𝕄 :=
  iprop((a0Loc d ↦[(rS L).set]{fullShare} m (a0Loc d)) ∗ (a1Loc d ↦[(rS L).set]{fullShare} m (a1Loc d))
    ∗ (a2Loc d ↦[(rT L).set]{fullShare} m (a2Loc d)) ∗ (a3Loc d ↦[(rT L).set]{fullShare} m (a3Loc d))
    ∗ (a2Loc d ↦[setR L]{fullShare} m (a2Loc d)) ∗ (a3Loc d ↦[setR L]{fullShare} m (a3Loc d))
    ∗ (o0Loc d ↦[(rE L).set]{fullShare} g0) ∗ (o1Loc d ↦[(rE L).set]{fullShare} g1)
    ∗ (o0Loc d ↦[(rT L).set]{fullShare} g0) ∗ (o1Loc d ↦[(rT L).set]{fullShare} g1)
    ∗ (o0Loc d ↦[setR L]{fullShare} g0) ∗ (o1Loc d ↦[setR L]{fullShare} g1))

instance res_storable (g0 : Buf (Elt F) (o0Loc d)) (g1 : Buf (Elt F) (o1Loc d)) : BI.Storable (upEmb : UEmb _ 𝕄) (res m d L g0 g1) := by
  unfold res; infer_instance

/-- The subcore's six DMA semaphores. -/
def sixSems : Finset (SemLoc sig) :=
  {.dma cc0_scratch0.sem, .dma cc0_scratch1.sem, .dma cc0_scratch2.sem, .dma cc0_scratch3.sem, .dma cc0_scratch4.sem, .dma cc0_scratch5.sem}
def cellEmb : SemLoc sig ↪ GSem nD τ sig := ⟨fun sm => (thr d L, sm), fun _ _ e => (Prod.mk.inj e).2⟩

omit [FloatOps F] in
theorem six_sub : sixSems.map (cellEmb d L) ⊆ ownCells (thr d L) := by
  intro g hg
  obtain ⟨sm, hsm, rfl⟩ := Finset.mem_map.mp hg
  refine mem_ownCells.mpr ⟨rfl, ?_⟩
  have h : ∀ sm ∈ (sixSems : Finset (SemLoc sig)), sm.isScoped .scVector = true := by decide
  exact h sm hsm

omit [FloatOps F] in
/-- They are among the subcore's scoped semaphores: at zero at its entry, to be at zero at its exit. -/
theorem ownSems0_six :
    (ownSems0 (thr d L) : sProp 𝕄)
      = iprop((semVal (cell d L cc0_scratch0) 0 ∗ semVal (cell d L cc0_scratch1) 0 ∗ semVal (cell d L cc0_scratch2) 0
          ∗ semVal (cell d L cc0_scratch3) 0 ∗ semVal (cell d L cc0_scratch4) 0 ∗ semVal (cell d L cc0_scratch5) 0)
          ∗ bigSep (ownCells (thr d L) \ sixSems.map (cellEmb d L)) fun g => semVal g 0) := by
  unfold SparseCore.Cfg.ownSems0
  rw [SparseCore.bigSep_sdiff_split' (six_sub d L), bigSep_map]
  unfold sixSems
  rw [SparseCore.bigSep_insert' (by decide), SparseCore.bigSep_insert' (by decide), SparseCore.bigSep_insert' (by decide),
    SparseCore.bigSep_insert' (by decide), SparseCore.bigSep_insert' (by decide), bigSep_singleton]
  rfl

/-- The task on vector subcore `L` of device `d`. -/
theorem tile_body (O : CellTallies nD τ sig (HIx 1)) (W : Waits sig (HIx 1)) (hO : ∀ g, O g none = 0) :
    iprop(levAts (K (F := F)).L (K (F := F)).lev ∗ emp ∗ res m d L (m (o0Loc d)) (m (o1Loc d))
        ∗ scopedBufs (thr d L) ∗ scopedSems0 (thr d L) ∗ owes (thr d L) O W)
      ⊢ wp frame (wpE (defs₀ (F := F)) 𝒱₀ (thr d L) none) Set.univ
          (cc0__bank_update L A0 (Memref.isWhole_whole _) A1 (Memref.isWhole_whole _) A2 (Memref.isWhole_whole _) A3 (Memref.isWhole_whole _)
            O0 (Memref.isWhole_whole _) O1 (Memref.isWhole_whole _) cc0_scratch0 cc0_scratch1 cc0_scratch2 cc0_scratch3 cc0_scratch4 cc0_scratch5)
          fun _ => iprop(res m d L (G0 m d) (G1 m d) ∗ scopedBufs (thr d L) ∗ scopedSems0 (thr d L)
            ∗ ∃ W', ⌜∀ p ∈ W', p ∈ W ∨ p.2 = none⌝ ∗ owes (thr d L) O W') := by
  simp only [cc0__bank_update_eq_skeleton]; unfold cc0__bank_update_skel
  simp only [k0_part1_eq_skeleton]; unfold k0_part1_skel
  rw [SparseCore.Cfg.scopedSems0_V (Val := Elt F) d (cV L) (jV L), ownSems0_six]
  unfold res
  by_cases hc : k0_cond1 L = 1#1
  · rw [dif_pos hc]
    iintro ⟨#Hlv, -, ⟨Ha0, Ha1, Ha2, Ha3, Hr2, Hr3, HoE0, HoE1, HoT0, HoT1, HoR0, HoR1⟩, Hsb, ⟨⟨Hs0, Hs1, Hs2, Hs3, Hs4, Hs5⟩, Hsems⟩, HO⟩
    ihave Hmw := ((K (F := F)).mayWaits_none (thr := thr d L) hO) $$ Hlv
    ihave Ha0 := (Entails.of_eq (own_A0 d L (rS L) (fun _ => rfl) _).symm) $$ Ha0
    ihave Ha1 := (Entails.of_eq (own_A1 d L (rS L) (fun _ => rfl) _).symm) $$ Ha1
    ihave Ha2 := (Entails.of_eq (own_A2 d L (rT L) (fun _ => rfl) _).symm) $$ Ha2
    ihave Ha3 := (Entails.of_eq (own_A3 d L (rT L) (fun _ => rfl) _).symm) $$ Ha3
    ihave HoE0 := (Entails.of_eq (own_O0 d L (rE L) (fun _ => rfl) _).symm) $$ HoE0
    ihave HoE1 := (Entails.of_eq (own_O1 d L (rE L) (fun _ => rfl) _).symm) $$ HoE1
    ihave HoT0 := (Entails.of_eq (own_O0 d L (rT L) (fun _ => rfl) _).symm) $$ HoT0
    ihave HoT1 := (Entails.of_eq (own_O1 d L (rT L) (fun _ => rfl) _).symm) $$ HoT1
    ihave Hr2 := (Entails.of_eq (ownR_A2 d L hc _).symm) $$ Hr2
    ihave Hr3 := (Entails.of_eq (ownR_A3 d L hc _).symm) $$ Hr3
    ihave HoR0 := (Entails.of_eq (ownR_O0 d L hc _).symm) $$ HoR0
    ihave HoR1 := (Entails.of_eq (ownR_O1 d L hc _).symm) $$ HoR1
    sl_exec
    sl_step
    isplitl [Ha0 Ha1 Ha2 Ha3 Hr2 Hr3 HoE0 HoE1 HoT0 HoT1 HoR0 HoR1]
    · isplitl [Ha0]; · iapply (Entails.of_eq (own_A0 d L (rS L) (fun _ => rfl) _)); iexact Ha0
      isplitl [Ha1]; · iapply (Entails.of_eq (own_A1 d L (rS L) (fun _ => rfl) _)); iexact Ha1
      isplitl [Ha2]; · iapply (Entails.of_eq (own_A2 d L (rT L) (fun _ => rfl) _)); iexact Ha2
      isplitl [Ha3]; · iapply (Entails.of_eq (own_A3 d L (rT L) (fun _ => rfl) _)); iexact Ha3
      isplitl [Hr2]; · iapply (Entails.of_eq (ownR_A2 d L hc _)); iexact Hr2
      isplitl [Hr3]; · iapply (Entails.of_eq (ownR_A3 d L hc _)); iexact Hr3
      isplitl [HoE0]; · iapply (Entails.of_eq (pieceE0 m d L _ rfl)); iexact HoE0
      isplitl [HoE1]; · iapply (Entails.of_eq (pieceE1 m d L _ rfl)); iexact HoE1
      isplitl [HoT0]; · iapply (Entails.of_eq (pieceT0 m d L _ rfl)); iexact HoT0
      isplitl [HoT1]; · iapply (Entails.of_eq (pieceT1 m d L _ rfl)); iexact HoT1
      isplitl [HoR0]; · iapply (Entails.of_eq (pieceR0 m d L hc _ rfl)); iexact HoR0
      iapply (Entails.of_eq (pieceR1 m d L hc _ rfl)); iexact HoR1
    isplitl [Hsb]; · iexact Hsb
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  · rw [dif_neg hc]
    iintro ⟨#Hlv, -, ⟨Ha0, Ha1, Ha2, Ha3, Hr2, Hr3, HoE0, HoE1, HoT0, HoT1, HoR0, HoR1⟩, Hsb, ⟨⟨Hs0, Hs1, Hs2, Hs3, Hs4, Hs5⟩, Hsems⟩, HO⟩
    ihave Hmw := ((K (F := F)).mayWaits_none (thr := thr d L) hO) $$ Hlv
    ihave Ha0 := (Entails.of_eq (own_A0 d L (rS L) (fun _ => rfl) _).symm) $$ Ha0
    ihave Ha1 := (Entails.of_eq (own_A1 d L (rS L) (fun _ => rfl) _).symm) $$ Ha1
    ihave Ha2 := (Entails.of_eq (own_A2 d L (rT L) (fun _ => rfl) _).symm) $$ Ha2
    ihave Ha3 := (Entails.of_eq (own_A3 d L (rT L) (fun _ => rfl) _).symm) $$ Ha3
    ihave HoE0 := (Entails.of_eq (own_O0 d L (rE L) (fun _ => rfl) _).symm) $$ HoE0
    ihave HoE1 := (Entails.of_eq (own_O1 d L (rE L) (fun _ => rfl) _).symm) $$ HoE1
    ihave HoT0 := (Entails.of_eq (own_O0 d L (rT L) (fun _ => rfl) _).symm) $$ HoT0
    ihave HoT1 := (Entails.of_eq (own_O1 d L (rT L) (fun _ => rfl) _).symm) $$ HoT1
    sl_exec
    sl_step
    isplitl [Ha0 Ha1 Ha2 Ha3 Hr2 Hr3 HoE0 HoE1 HoT0 HoT1 HoR0 HoR1]
    · isplitl [Ha0]; · iapply (Entails.of_eq (own_A0 d L (rS L) (fun _ => rfl) _)); iexact Ha0
      isplitl [Ha1]; · iapply (Entails.of_eq (own_A1 d L (rS L) (fun _ => rfl) _)); iexact Ha1
      isplitl [Ha2]; · iapply (Entails.of_eq (own_A2 d L (rT L) (fun _ => rfl) _)); iexact Ha2
      isplitl [Ha3]; · iapply (Entails.of_eq (own_A3 d L (rT L) (fun _ => rfl) _)); iexact Ha3
      isplitl [Hr2]; · iexact Hr2
      isplitl [Hr3]; · iexact Hr3
      isplitl [HoE0]; · iapply (Entails.of_eq (pieceE0 m d L _ rfl)); iexact HoE0
      isplitl [HoE1]; · iapply (Entails.of_eq (pieceE1 m d L _ rfl)); iexact HoE1
      isplitl [HoT0]; · iapply (Entails.of_eq (pieceT0 m d L _ rfl)); iexact HoT0
      isplitl [HoT1]; · iapply (Entails.of_eq (pieceT1 m d L _ rfl)); iexact HoT1
      isplitl [HoR0]; · iapply (Entails.of_eq (noneR_O0 d L hc _ _)); iexact HoR0
      iapply (Entails.of_eq (noneR_O1 d L hc _ _)); iexact HoR1
    isplitl [Hsb]; · iexact Hsb
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Tile

end Cert.Proof.KernelRun

end
-- ==== Proof.KernelCover.lean ====
import proofs.«210836_g79860621902670_cont_9to1_m_360_5_alg».proof.Proof.KernelTile

/-!
  The thirty-two workers' pieces tile the arrays. With worker number `w = 2·s + c`: the batch rows
  `512·w …` tile the 16384 rows of a batch; in a bank-shaped array the rows `512·w …` (the batch's
  landing rows) fill rows `0 … 16383`, the rows `16384 + 2608·w …` fill `16384 … 99839`, and the
  rows `99840 + 8·w …` of the first twenty workers fill `99840 … 99999`. So an array held whole is
  the separating sum of its pieces, and the pieces of the outputs, all holding one function, join to
  the outputs held whole at that function.
-/

noncomputable section

namespace Cert.Proof.KernelRun

open Cert.Kernel Cert.Kernel.Gen Cert.Proof.BankSpec

open Idealize.ShloMosaic
open Idealize.SL Idealize.SL.RA Idealize.SL.BI
open scoped Idealize.SL.BI
open Idealize.SL.BI.BIBase Idealize.SL.BI.Laws Idealize.SL.ProofMode Idealize.SL.Sem

/-- A worker: SparseCore and vector subcore. -/
abbrev Wk : Type := Fin 2 × Fin 16

def coordsV (c : Fin (grid0.bound 0)) (s : Fin (grid0.bound 1)) : grid0.Coords :=
  fun | 0 => c | 1 => s | ⟨_ + 2, h⟩ => absurd h (Nat.not_lt.2 (Nat.le_add_left _ _))

/-- The worker's grid coordinates. -/
def Lp (p : Wk) : grid0.Coords := coordsV p.1 p.2

theorem Lp0 (p : Wk) : ((Lp p) 0).val = p.1.val := rfl
theorem Lp1 (p : Wk) : ((Lp p) 1).val = p.2.val := rfl

/-- A block of whole rows of a two-axis array of 128 columns: an index is in it when its row is. -/
theorem mem_unit_rows {n k : Nat} (off : Fin 2 → Nat) (inb : ∀ a, off a + (![k, 128] : Fin 2 → Nat) a ≤ (⟨2, ![n, 128]⟩ : Shape).size a)
    (h1 : off 1 = 0) (i : (⟨2, ![n, 128]⟩ : Shape).Idx) :
    i ∈ (Rect.unit (s := ⟨2, ![n, 128]⟩) off ![k, 128] inb).set ↔ off 0 ≤ (i 0).val ∧ (i 0).val < off 0 + k := by
  rw [Rect.mem_set_unit]
  constructor
  · intro h; exact h 0
  · intro h a
    match a with
    | ⟨0, _⟩ => exact h
    | ⟨1, _⟩ =>
      have hi : (i 1).val < 128 := (i 1).isLt
      show off 1 ≤ (i 1).val ∧ (i 1).val < off 1 + 128
      omega

theorem off1_0 (L : grid0.Coords) : (k0_off1 L) 0 = 1024 * (L 1).val + 512 * (L 0).val := by rw [k0_off1_eq]; rfl
theorem off1_1 (L : grid0.Coords) : (k0_off1 L) 1 = 0 := by rw [k0_off1_eq]; rfl
theorem off2_0 (L : grid0.Coords) : (k0_off2 L) 0 = 1024 * (L 1).val + 512 * (L 0).val := by rw [k0_off2_eq]; rfl
theorem off2_1 (L : grid0.Coords) : (k0_off2 L) 1 = 0 := by rw [k0_off2_eq]; rfl
theorem off3_0 (L : grid0.Coords) : (k0_off3 L) 0 = 5216 * (L 1).val + 2608 * (L 0).val + 16384 := by rw [k0_off3_eq]; rfl
theorem off3_1 (L : grid0.Coords) : (k0_off3 L) 1 = 0 := by rw [k0_off3_eq]; rfl
theorem off4_0 (L : grid0.Coords) : (k0_off4 L) 0 = 16 * (L 1).val + 8 * (L 0).val + 99840 := by rw [k0_off4_eq]; rfl

theorem memE (p : Wk) (i : S100000x128.Idx) :
    i ∈ (rE (Lp p)).set ↔ 1024 * p.2.val + 512 * p.1.val ≤ (i 0).val ∧ (i 0).val < 1024 * p.2.val + 512 * p.1.val + 512 := by
  refine (mem_unit_rows (k0_off1 (Lp p)) _ (off1_1 _) i).trans ?_
  rw [off1_0, Lp0, Lp1]
theorem memS (p : Wk) (i : S16384x128.Idx) :
    i ∈ (rS (Lp p)).set ↔ 1024 * p.2.val + 512 * p.1.val ≤ (i 0).val ∧ (i 0).val < 1024 * p.2.val + 512 * p.1.val + 512 := by
  refine (mem_unit_rows (k0_off2 (Lp p)) _ (off2_1 _) i).trans ?_
  rw [off2_0, Lp0, Lp1]
theorem memT (p : Wk) (i : S100000x128.Idx) :
    i ∈ (rT (Lp p)).set ↔ 5216 * p.2.val + 2608 * p.1.val + 16384 ≤ (i 0).val ∧ (i 0).val < 5216 * p.2.val + 2608 * p.1.val + 16384 + 2608 := by
  refine (mem_unit_rows (k0_off3 (Lp p)) _ (off3_1 _) i).trans ?_
  rw [off3_0, Lp0, Lp1]
theorem memR (p : Wk) (i : S100000x128.Idx) :
    i ∈ setR (Lp p) ↔ 16 * p.2.val + 8 * p.1.val + 99840 ≤ (i 0).val ∧ (i 0).val < 16 * p.2.val + 8 * p.1.val + 99840 + 8 := by
  rw [setR, Finset.mem_filter, off4_0, Lp0, Lp1]
  exact ⟨fun h => h.2, fun h => ⟨Finset.mem_univ _, h⟩⟩

theorem wk_ne {p p' : Wk} (h : p ≠ p') : p.1.val ≠ p'.1.val ∨ p.2.val ≠ p'.2.val := by
  by_contra hh
  rw [not_or, not_not, not_not] at hh
  exact h (Prod.ext (Fin.ext hh.1) (Fin.ext hh.2))

/-- The landing rows of the batch, the big shares of the bank, the leftover rows: as sets of a bank-shaped array's indices. -/
def UE : Finset S100000x128.Idx := Finset.univ.biUnion fun p : Wk => (rE (Lp p)).set
def UT : Finset S100000x128.Idx := Finset.univ.biUnion fun p : Wk => (rT (Lp p)).set
def UR : Finset S100000x128.Idx := Finset.univ.biUnion fun p : Wk => setR (Lp p)

theorem disjE : ∀ p ∈ (Finset.univ : Finset Wk), ∀ p' ∈ (Finset.univ : Finset Wk), p ≠ p' → Disjoint (rE (Lp p)).set (rE (Lp p')).set := by
  intro p _ p' _ h
  refine Finset.disjoint_left.mpr fun i hi hj => ?_
  have h1 := (memE p i).mp hi; have h2 := (memE p' i).mp hj
  have := wk_ne h; have := p.1.isLt; have := p'.1.isLt
  omega
theorem disjS : ∀ p ∈ (Finset.univ : Finset Wk), ∀ p' ∈ (Finset.univ : Finset Wk), p ≠ p' → Disjoint (rS (Lp p)).set (rS (Lp p')).set := by
  intro p _ p' _ h
  refine Finset.disjoint_left.mpr fun i hi hj => ?_
  have h1 := (memS p i).mp hi; have h2 := (memS p' i).mp hj
  have := wk_ne h; have := p.1.isLt; have := p'.1.isLt
  omega
theorem disjT : ∀ p ∈ (Finset.univ : Finset Wk), ∀ p' ∈ (Finset.univ : Finset Wk), p ≠ p' → Disjoint (rT (Lp p)).set (rT (Lp p')).set := by
  intro p _ p' _ h
  refine Finset.disjoint_left.mpr fun i hi hj => ?_
  have h1 := (memT p i).mp hi; have h2 := (memT p' i).mp hj
  have := wk_ne h; have := p.1.isLt; have := p'.1.isLt
  omega
theorem disjR : ∀ p ∈ (Finset.univ : Finset Wk), ∀ p' ∈ (Finset.univ : Finset Wk), p ≠ p' → Disjoint (setR (Lp p)) (setR (Lp p')) := by
  intro p _ p' _ h
  refine Finset.disjoint_left.mpr fun i hi hj => ?_
  have h1 := (memR p i).mp hi; have h2 := (memR p' i).mp hj
  have := wk_ne h; have := p.1.isLt; have := p'.1.isLt
  omega

theorem memUE {i : S100000x128.Idx} : i ∈ UE ↔ (i 0).val < 16384 := by
  unfold UE
  rw [Finset.mem_biUnion]
  constructor
  · rintro ⟨p, -, hp⟩
    have h := (memE p i).mp hp; have := p.1.isLt; have := p.2.isLt
    omega
  · intro h
    refine ⟨(⟨((i 0).val / 512) % 2, Nat.mod_lt _ (by decide)⟩, ⟨(i 0).val / 1024, by omega⟩), Finset.mem_univ _, (memE _ i).mpr ?_⟩
    show 1024 * ((i 0).val / 1024) + 512 * (((i 0).val / 512) % 2) ≤ (i 0).val ∧ (i 0).val < 1024 * ((i 0).val / 1024) + 512 * (((i 0).val / 512) % 2) + 512
    omega
theorem memUT {i : S100000x128.Idx} : i ∈ UT ↔ 16384 ≤ (i 0).val ∧ (i 0).val < 99840 := by
  unfold UT
  rw [Finset.mem_biUnion]
  constructor
  · rintro ⟨p, -, hp⟩
    have h := (memT p i).mp hp; have := p.1.isLt; have := p.2.isLt
    omega
  · intro h
    refine ⟨(⟨(((i 0).val - 16384) / 2608) % 2, Nat.mod_lt _ (by decide)⟩, ⟨((i 0).val - 16384) / 5216, by omega⟩), Finset.mem_univ _, (memT _ i).mpr ?_⟩
    show 5216 * (((i 0).val - 16384) / 5216) + 2608 * ((((i 0).val - 16384) / 2608) % 2) + 16384 ≤ (i 0).val
      ∧ (i 0).val < 5216 * (((i 0).val - 16384) / 5216) + 2608 * ((((i 0).val - 16384) / 2608) % 2) + 16384 + 2608
    omega
theorem memUR {i : S100000x128.Idx} : i ∈ UR ↔ 99840 ≤ (i 0).val := by
  unfold UR
  rw [Finset.mem_biUnion]
  constructor
  · rintro ⟨p, -, hp⟩
    have h := (memR p i).mp hp
    omega
  · intro h
    have hi : (i 0).val < 100000 := (i 0).isLt
    refine ⟨(⟨(((i 0).val - 99840) / 8) % 2, Nat.mod_lt _ (by decide)⟩, ⟨((i 0).val - 99840) / 16, by omega⟩), Finset.mem_univ _, (memR _ i).mpr ?_⟩
    show 16 * (((i 0).val - 99840) / 16) + 8 * ((((i 0).val - 99840) / 8) % 2) + 99840 ≤ (i 0).val
      ∧ (i 0).val < 16 * (((i 0).val - 99840) / 16) + 8 * ((((i 0).val - 99840) / 8) % 2) + 99840 + 8
    omega

theorem coverS : (Finset.univ.biUnion fun p : Wk => (rS (Lp p)).set) = (Finset.univ : Finset S16384x128.Idx) := by
  refine Finset.eq_univ_iff_forall.mpr fun i => ?_
  have hi : (i 0).val < 16384 := (i 0).isLt
  refine Finset.mem_biUnion.mpr ⟨(⟨((i 0).val / 512) % 2, Nat.mod_lt _ (by decide)⟩, ⟨(i 0).val / 1024, by omega⟩), Finset.mem_univ _, (memS _ i).mpr ?_⟩
  show 1024 * ((i 0).val / 1024) + 512 * (((i 0).val / 512) % 2) ≤ (i 0).val ∧ (i 0).val < 1024 * ((i 0).val / 1024) + 512 * (((i 0).val / 512) % 2) + 512
  omega

theorem disj_E_TR : Disjoint UE (UT ∪ UR) :=
  Finset.disjoint_left.mpr fun i hi hj => by
    have h1 := memUE.mp hi
    rcases Finset.mem_union.mp hj with h | h
    · have := memUT.mp h; omega
    · have := memUR.mp h; omega
theorem disj_T_R : Disjoint UT UR :=
  Finset.disjoint_left.mpr fun i hi hj => by
    have := memUT.mp hi; have := memUR.mp hj; omega
theorem coverB : UE ∪ (UT ∪ UR) = (Finset.univ : Finset S100000x128.Idx) := by
  refine Finset.eq_univ_iff_forall.mpr fun i => ?_
  rw [Finset.mem_union, Finset.mem_union, memUE, memUT, memUR]
  omega

/-! ## The arrays held whole are their pieces -/

variable {F : FTy → Type}

local notation "𝕄" => MT nD τ sig (SparseCore.Cfg.HIx 1) (Elt F) ℕ UU ℕ

/-- A bank-shaped array held whole: its first 16384 rows, the big shares, the leftover rows. -/
theorem three_way {ℓ : Loc nD τ sig} (A B C : Finset (Idx ℓ)) (hA : Disjoint A (B ∪ C)) (hB : Disjoint B C) (hU : A ∪ (B ∪ C) = Finset.univ)
    (f : Buf (Elt F) ℓ) :
    (ℓ ↦[Finset.univ]{fullShare} f : sProp 𝕄) = iprop((ℓ ↦[A]{fullShare} f) ∗ (ℓ ↦[B]{fullShare} f) ∗ ℓ ↦[C]{fullShare} f) := by
  have h1 : (ℓ ↦[A ∪ (B ∪ C)]{fullShare} f : sProp 𝕄) ⊣⊢ iprop((ℓ ↦[A]{fullShare} f) ∗ ℓ ↦[B ∪ C]{fullShare} f) := pointsTo_union hA
  have h2 : (ℓ ↦[B ∪ C]{fullShare} f : sProp 𝕄) ⊣⊢ iprop((ℓ ↦[B]{fullShare} f) ∗ ℓ ↦[C]{fullShare} f) := pointsTo_union hB
  rw [← hU, BI.equiv_iff.mp ⟨h1.1, h1.2⟩, BI.equiv_iff.mp ⟨h2.1, h2.2⟩]

variable (d : Dev nD)

theorem split_o0 (f : Buf (Elt F) (o0Loc d)) :
    (o0Loc d ↦[Finset.univ]{fullShare} f : sProp 𝕄)
      = iprop((bigSep Finset.univ fun p : Wk => o0Loc d ↦[(rE (Lp p)).set]{fullShare} f)
          ∗ (bigSep Finset.univ fun p : Wk => o0Loc d ↦[(rT (Lp p)).set]{fullShare} f)
          ∗ bigSep Finset.univ fun p : Wk => o0Loc d ↦[setR (Lp p)]{fullShare} f) := by
  rw [three_way (ℓ := o0Loc d) UE UT UR disj_E_TR disj_T_R coverB f]
  unfold UE UT UR
  rw [pointsTo_biUnion Finset.univ (ℓ := o0Loc d) (fun p : Wk => (rE (Lp p)).set) disjE,
    pointsTo_biUnion Finset.univ (ℓ := o0Loc d) (fun p : Wk => (rT (Lp p)).set) disjT,
    pointsTo_biUnion Finset.univ (ℓ := o0Loc d) (fun p : Wk => setR (Lp p)) disjR]
theorem split_o1 (f : Buf (Elt F) (o1Loc d)) :
    (o1Loc d ↦[Finset.univ]{fullShare} f : sProp 𝕄)
      = iprop((bigSep Finset.univ fun p : Wk => o1Loc d ↦[(rE (Lp p)).set]{fullShare} f)
          ∗ (bigSep Finset.univ fun p : Wk => o1Loc d ↦[(rT (Lp p)).set]{fullShare} f)
          ∗ bigSep Finset.univ fun p : Wk => o1Loc d ↦[setR (Lp p)]{fullShare} f) := by
  rw [three_way (ℓ := o1Loc d) UE UT UR disj_E_TR disj_T_R coverB f]
  unfold UE UT UR
  rw [pointsTo_biUnion Finset.univ (ℓ := o1Loc d) (fun p : Wk => (rE (Lp p)).set) disjE,
    pointsTo_biUnion Finset.univ (ℓ := o1Loc d) (fun p : Wk => (rT (Lp p)).set) disjT,
    pointsTo_biUnion Finset.univ (ℓ := o1Loc d) (fun p : Wk => setR (Lp p)) disjR]
/-- A bank itself: its first 16384 rows stay with the TensorCore, no worker reads them. -/
theorem split_a2 (f : Buf (Elt F) (a2Loc d)) :
    (a2Loc d ↦[Finset.univ]{fullShare} f : sProp 𝕄)
      = iprop((a2Loc d ↦[UE]{fullShare} f)
          ∗ (bigSep Finset.univ fun p : Wk => a2Loc d ↦[(rT (Lp p)).set]{fullShare} f)
          ∗ bigSep Finset.univ fun p : Wk => a2Loc d ↦[setR (Lp p)]{fullShare} f) := by
  rw [three_way (ℓ := a2Loc d) UE UT UR disj_E_TR disj_T_R coverB f]
  unfold UT UR
  rw [pointsTo_biUnion Finset.univ (ℓ := a2Loc d) (fun p : Wk => (rT (Lp p)).set) disjT,
    pointsTo_biUnion Finset.univ (ℓ := a2Loc d) (fun p : Wk => setR (Lp p)) disjR]
theorem split_a3 (f : Buf (Elt F) (a3Loc d)) :
    (a3Loc d ↦[Finset.univ]{fullShare} f : sProp 𝕄)
      = iprop((a3Loc d ↦[UE]{fullShare} f)
          ∗ (bigSep Finset.univ fun p : Wk => a3Loc d ↦[(rT (Lp p)).set]{fullShare} f)
          ∗ bigSep Finset.univ fun p : Wk => a3Loc d ↦[setR (Lp p)]{fullShare} f) := by
  rw [three_way (ℓ := a3Loc d) UE UT UR disj_E_TR disj_T_R coverB f]
  unfold UT UR
  rw [pointsTo_biUnion Finset.univ (ℓ := a3Loc d) (fun p : Wk => (rT (Lp p)).set) disjT,
    pointsTo_biUnion Finset.univ (ℓ := a3Loc d) (fun p : Wk => setR (Lp p)) disjR]
theorem split_a0 (f : Buf (Elt F) (a0Loc d)) :
    (a0Loc d ↦[Finset.univ]{fullShare} f : sProp 𝕄) = bigSep Finset.univ fun p : Wk => a0Loc d ↦[(rS (Lp p)).set]{fullShare} f := by
  rw [← pointsTo_biUnion Finset.univ (ℓ := a0Loc d) (fun p : Wk => (rS (Lp p)).set) disjS, coverS]
theorem split_a1 (f : Buf (Elt F) (a1Loc d)) :
    (a1Loc d ↦[Finset.univ]{fullShare} f : sProp 𝕄) = bigSep Finset.univ fun p : Wk => a1Loc d ↦[(rS (Lp p)).set]{fullShare} f := by
  rw [← pointsTo_biUnion Finset.univ (ℓ := a1Loc d) (fun p : Wk => (rS (Lp p)).set) disjS, coverS]

end Cert.Proof.KernelRun

end
-- ==== Proof.KernelLaunch.lean ====
import proofs.«210836_g79860621902670_cont_9to1_m_360_5_alg».proof.Proof.KernelBody
import proofs.«210836_g79860621902670_cont_9to1_m_360_5_alg».proof.Proof.KernelCover

/-!
  The program's run. The TensorCore starts the SparseCores with the six arrays cut into the workers'
  pieces (the first 16384 rows of the two banks, which no worker reads, stay behind), every vector
  subcore runs its task, and the pieces come back: the inputs as they were, every piece of the two
  outputs holding the updated bank. The pieces tile the outputs, so the outputs end WHOLE at the
  updated banks, and the four inputs end unchanged.
-/

noncomputable section

namespace Cert.Proof.KernelRun

open Cert.Kernel Cert.Kernel.Gen Cert.Proof.BankSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry -/

/-- The call hands SparseCore `c` the pieces of its sixteen workers, outputs at the launch contents, and takes them back with
    the outputs' pieces at the updated banks; a worker is handed its own. -/
def P : (K (F := F)).Pay (nD := nD) (Val := Elt F) (Name := ℕ) (U := UU) where
  st := fun q d c => match q with
    | 0 => bigSep Finset.univ fun i : Fin 16 => res m d (Lp (Fin.cast nCore_zero c, i)) (m (o0Loc d)) (m (o1Loc d))
  dn := fun q d c => match q with
    | 0 => bigSep Finset.univ fun i : Fin 16 => res m d (Lp (Fin.cast nCore_zero c, i)) (G0 m d) (G1 m d)
  go := fun q d c i => match q with
    | 0 => res m d (Lp (Fin.cast nCore_zero c, Fin.cast nSub_zero i)) (m (o0Loc d)) (m (o1Loc d))
  td := fun q d c i => match q with
    | 0 => res m d (Lp (Fin.cast nCore_zero c, Fin.cast nSub_zero i)) (G0 m d) (G1 m d)
  x := fun _ _ => iprop(emp)

instance P_storable : (P (F := F) m).IsStorable where
  st q d c := match q with
    | 0 => (inferInstance : BI.Storable (upEmb : UEmb _ 𝕄) (bigSep Finset.univ fun i : Fin 16 => res m d (Lp (Fin.cast nCore_zero c, i)) (m (o0Loc d)) (m (o1Loc d))))
  dn q d c := match q with
    | 0 => (inferInstance : BI.Storable (upEmb : UEmb _ 𝕄) (bigSep Finset.univ fun i : Fin 16 => res m d (Lp (Fin.cast nCore_zero c, i)) (G0 m d) (G1 m d)))
  go q d c i := match q with
    | 0 => (inferInstance : BI.Storable (upEmb : UEmb _ 𝕄) (res m d (Lp (Fin.cast nCore_zero c, Fin.cast nSub_zero i)) (m (o0Loc d)) (m (o1Loc d))))
  td q d c i := match q with
    | 0 => (inferInstance : BI.Storable (upEmb : UEmb _ 𝕄) (res m d (Lp (Fin.cast nCore_zero c, Fin.cast nSub_zero i)) (G0 m d) (G1 m d)))

/-! ## The launch theorem's obligations -/

theorem defs₀_vector (c : Fin τ.nSC) (s : Fin τ.nSub) :
    defs₀ (F := F) (.scVector c s) 0 ()
      = SparseCore.onTile hcore0 hsub0 (fun c s => cc0__bank_update (coordsV c s)
          A0 (Memref.isWhole_whole _) A1 (Memref.isWhole_whole _) A2 (Memref.isWhole_whole _) A3 (Memref.isWhole_whole _)
          O0 (Memref.isWhole_whole _) O1 (Memref.isWhole_whole _) cc0_scratch0 cc0_scratch1 cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => res m d (Lp (Fin.cast nCore_zero c, i)) (m (o0Loc d)) (m (o1Loc d))) ⊢ |={Set.univ}=> iprop(
      (bigSep Finset.univ fun i : Fin ((K (F := F)).nSub 0) => res m d (Lp (Fin.cast nCore_zero c, Fin.cast nSub_zero i)) (m (o0Loc d)) (m (o1Loc d)))
      ∗ ((bigSep Finset.univ fun i : Fin ((K (F := F)).nSub 0) => res m d (Lp (Fin.cast nCore_zero c, Fin.cast nSub_zero i)) (G0 m d) (G1 m d))
          -∗ bigSep Finset.univ fun i : Fin 16 => res m d (Lp (Fin.cast nCore_zero c, i)) (G0 m d) (G1 m d)))
  rw [bigSep_tasks (F := F) (fun i => res m d (Lp (Fin.cast nCore_zero c, i)) (m (o0Loc d)) (m (o1Loc d))),
    bigSep_tasks (F := F) (fun i => res m d (Lp (Fin.cast nCore_zero c, i)) (G0 m d) (G1 m d))]
  iintro H; imodintro
  isplitl [H]; · iexact H
  iintro H; iexact H

/-! ## The launch element: the handshakes' rounds; the transfers' counters are found by the copies themselves -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((a0Loc d ↦[Finset.univ]{fullShare} W main_arg0) ∗ (a1Loc d ↦[Finset.univ]{fullShare} W main_arg1)
      ∗ (a2Loc d ↦[Finset.univ]{fullShare} W main_arg2) ∗ (a3Loc d ↦[Finset.univ]{fullShare} W main_arg3)
      ∗ (o0Loc d ↦[Finset.univ]{fullShare} W main_v0_0) ∗ o1Loc d ↦[Finset.univ]{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

/-- All the workers' pieces, family by family. -/
def pieces (d : Dev nD) (g0 : Buf (Elt F) (o0Loc d)) (g1 : Buf (Elt F) (o1Loc d)) : sProp 𝕄 :=
  iprop((bigSep Finset.univ fun p : Wk => a0Loc d ↦[(rS (Lp p)).set]{fullShare} m (a0Loc d))
    ∗ (bigSep Finset.univ fun p : Wk => a1Loc d ↦[(rS (Lp p)).set]{fullShare} m (a1Loc d))
    ∗ (bigSep Finset.univ fun p : Wk => a2Loc d ↦[(rT (Lp p)).set]{fullShare} m (a2Loc d))
    ∗ (bigSep Finset.univ fun p : Wk => a3Loc d ↦[(rT (Lp p)).set]{fullShare} m (a3Loc d))
    ∗ (bigSep Finset.univ fun p : Wk => a2Loc d ↦[setR (Lp p)]{fullShare} m (a2Loc d))
    ∗ (bigSep Finset.univ fun p : Wk => a3Loc d ↦[setR (Lp p)]{fullShare} m (a3Loc d))
    ∗ (bigSep Finset.univ fun p : Wk => o0Loc d ↦[(rE (Lp p)).set]{fullShare} g0)
    ∗ (bigSep Finset.univ fun p : Wk => o1Loc d ↦[(rE (Lp p)).set]{fullShare} g1)
    ∗ (bigSep Finset.univ fun p : Wk => o0Loc d ↦[(rT (Lp p)).set]{fullShare} g0)
    ∗ (bigSep Finset.univ fun p : Wk => o1Loc d ↦[(rT (Lp p)).set]{fullShare} g1)
    ∗ (bigSep Finset.univ fun p : Wk => o0Loc d ↦[setR (Lp p)]{fullShare} g0)
    ∗ (bigSep Finset.univ fun p : Wk => o1Loc d ↦[setR (Lp p)]{fullShare} g1))

theorem pieces_eq (d : Dev nD) (g0 : Buf (Elt F) (o0Loc d)) (g1 : Buf (Elt F) (o1Loc d)) :
    (bigSep Finset.univ fun p : Wk => res m d (Lp p) g0 g1) = pieces m d g0 g1 := by
  unfold res pieces
  rw [bigSep_sep', bigSep_sep', bigSep_sep', bigSep_sep', bigSep_sep', bigSep_sep', bigSep_sep', bigSep_sep', bigSep_sep', bigSep_sep', bigSep_sep']

theorem cores_eq (d : Dev nD) (g0 : Buf (Elt F) (o0Loc d)) (g1 : Buf (Elt F) (o1Loc d)) :
    (bigSep Finset.univ fun c : Fin ((K (F := F)).nCore 0) => bigSep Finset.univ fun i : Fin 16 => res m d (Lp (Fin.cast nCore_zero c, i)) g0 g1)
      = pieces m d g0 g1 := by
  rw [← pieces_eq, bigSep_univ_prod (fun p : Wk => res m d (Lp p) g0 g1)]
  exact bigSep_congr fun _ _ => rfl

theorem st0_eq (d : Dev nD) : (bigSep Finset.univ fun c : Fin ((K (F := F)).nCore 0) => (P m).st 0 d c) = pieces m d (m (o0Loc d)) (m (o1Loc d)) :=
  cores_eq m d _ _
theorem dn0_eq (d : Dev nD) : (bigSep Finset.univ fun c : Fin ((K (F := F)).nCore 0) => (P m).dn 0 d c) = pieces m d (G0 m d) (G1 m d) :=
  cores_eq m d _ _

/-- What @main leaves the claim: the four inputs at their launch contents, the two outputs at the updated banks. -/
abbrev FIN (d : Dev nD) : sProp 𝕄 :=
  iprop((a0Loc d ↦[Finset.univ]{fullShare} m (a0Loc d)) ∗ (a1Loc d ↦[Finset.univ]{fullShare} m (a1Loc d))
    ∗ (a2Loc d ↦[Finset.univ]{fullShare} m (a2Loc d)) ∗ (a3Loc d ↦[Finset.univ]{fullShare} m (a3Loc d))
    ∗ (o0Loc d ↦[Finset.univ]{fullShare} G0 m d) ∗ o1Loc d ↦[Finset.univ]{fullShare} G1 m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ho0, Ho1⟩, -, -⟩, -⟩
  ihave Ha0 := (Entails.of_eq (split_a0 (F := F) d _)) $$ Ha0
  ihave Ha1 := (Entails.of_eq (split_a1 (F := F) d _)) $$ Ha1
  ihave Ha2 := (Entails.of_eq (split_a2 (F := F) d _)) $$ Ha2
  ihave Ha3 := (Entails.of_eq (split_a3 (F := F) d _)) $$ Ha3
  ihave Ho0 := (Entails.of_eq (split_o0 (F := F) d _)) $$ Ho0
  ihave Ho1 := (Entails.of_eq (split_o1 (F := F) d _)) $$ Ho1
  icases Ha2 with ⟨Ha2L, Ha2T, Ha2R⟩
  icases Ha3 with ⟨Ha3L, Ha3T, Ha3R⟩
  icases Ho0 with ⟨Ho0E, Ho0T, Ho0R⟩
  icases Ho1 with ⟨Ho1E, Ho1T, Ho1R⟩
  iapply ((K (F := F)).wp_run (D (F := F)) 𝒱 (EH := EH) (P := P m) κ d 0) $$ [Hst Ha0 Ha1 Ha2T Ha3T Ha2R Ha3R Ho0E Ho1E Ho0T Ho1T Ho0R Ho1R Ha2L Ha3L]
  isplitr; · iexact Hctx
  isplitl [Hst]; · iexact Hst
  isplitl [Ha0 Ha1 Ha2T Ha3T Ha2R Ha3R Ho0E Ho1E Ho0T Ho1T Ho0R Ho1R]
  · rw [st0_eq]; unfold pieces
    isplitl [Ha0]; · iexact Ha0
    isplitl [Ha1]; · iexact Ha1
    isplitl [Ha2T]; · iexact Ha2T
    isplitl [Ha3T]; · iexact Ha3T
    isplitl [Ha2R]; · iexact Ha2R
    isplitl [Ha3R]; · iexact Ha3R
    isplitl [Ho0E]; · iexact Ho0E
    isplitl [Ho1E]; · iexact Ho1E
    isplitl [Ho0T]; · iexact Ho0T
    isplitl [Ho1T]; · iexact Ho1T
    isplitl [Ho0R]; · iexact Ho0R
    iexact Ho1R
  iintro ⟨Hst, Hdn⟩
  ihave Hdn' := (Entails.of_eq (dn0_eq m d)) $$ Hdn
  unfold pieces
  icases Hdn' with ⟨Ha0, Ha1, Ha2T, Ha3T, Ha2R, Ha3R, Ho0E, Ho1E, Ho0T, Ho1T, Ho0R, Ho1R⟩
  imodintro
  isplitl [Hst]; · iexact Hst
  isplitl [Ha0]; · iapply (Entails.of_eq (split_a0 (F := F) d _).symm); iexact Ha0
  isplitl [Ha1]; · iapply (Entails.of_eq (split_a1 (F := F) d _).symm); iexact Ha1
  isplitl [Ha2L Ha2T Ha2R]
  · iapply (Entails.of_eq (split_a2 (F := F) d _).symm)
    isplitl [Ha2L]; · iexact Ha2L
    isplitl [Ha2T]; · iexact Ha2T
    iexact Ha2R
  isplitl [Ha3L Ha3T Ha3R]
  · iapply (Entails.of_eq (split_a3 (F := F) d _).symm)
    isplitl [Ha3L]; · iexact Ha3L
    isplitl [Ha3T]; · iexact Ha3T
    iexact Ha3R
  isplitl [Ho0E Ho0T Ho0R]
  · iapply (Entails.of_eq (split_o0 (F := F) d _).symm)
    isplitl [Ho0E]; · iexact Ho0E
    isplitl [Ho0T]; · iexact Ho0T
    iexact Ho0R
  iapply (Entails.of_eq (split_o1 (F := F) d _).symm)
  isplitl [Ho1E]; · iexact Ho1E
  isplitl [Ho1T]; · iexact Ho1T
  iexact Ho1R

def fq (d : Dev nD) (s' : Phys nD τ sig (Elt F)) : Prop :=
  s'.mem.mem (o0Loc d) = G0 m d ∧ s'.mem.mem (o1Loc d) = G1 m d
    ∧ s'.mem.mem (a0Loc d) = m (a0Loc d) ∧ s'.mem.mem (a1Loc d) = m (a1Loc d) ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ha0, Ha1, Ha2, Ha3, Ho0, Ho1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (persistent_entails_right (SI_pointsTo_agree (st := s') (ℓ := o0Loc d) (I := Finset.univ) (q := fullShare) (f := G0 m d))) $$ [HSI Ho0]
  · isplitl [HSI] <;> iassumption
  icases H with ⟨%h4, HSI, -⟩
  ihave H := (SI_pointsTo_agree (st := s') (ℓ := o1Loc d) (I := Finset.univ) (q := fullShare) (f := G1 m d)) $$ [HSI Ho1]
  · isplitl [HSI] <;> iassumption
  icases H with %h5
  ipureintro
  exact ⟨funext fun i => h4 i (Finset.mem_univ i), funext fun i => h5 i (Finset.mem_univ i), funext fun i => h0 i (Finset.mem_univ i),
    funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (o0Loc c) = G0 m c ∧ r.2.mem (o1Loc c) = G1 m c
    ∧ r.2.mem (a0Loc c) = m (a0Loc c) ∧ r.2.mem (a1Loc c) = m (a1Loc c) ∧ r.2.mem (a2Loc c) = m (a2Loc c) ∧ r.2.mem (a3Loc c) = m (a3Loc c)

/-- Every weakly fair execution of the device's threads ends, nothing faulting, with the two results the updated banks and
    the four arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelRun

end
-- ==== Proof.KernelIdealTile.lean ====
import proofs.«210836_g79860621902670_cont_9to1_m_360_5_alg».proof.Defs
import proofs.«210836_g79860621902670_cont_9to1_m_360_5_alg».proof.Proof.KernelLaunch
import proofs.«210836_g79860621902670_cont_9to1_m_360_5_alg».proof.Proof.BankSpec
import proofs.«210836_g79860621902670_cont_9to1_m_360_5_alg».proof.Proof.LibLanded
import Idealize.ShloMosaic.Lib.SparseCore.Launch
import Idealize.ShloMosaic.Lib.StableHlo.Run
import Idealize.ShloMosaic.Lib.Pipeline.Kit
import Idealize.ShloMosaic.Lib.Tactic
import proofs.«210836_g79860621902670_cont_9to1_m_360_5_alg».proof.Proof.Gen.KernelIdeal
import proofs.«210836_g79860621902670_cont_9to1_m_360_5_alg».proof.Proof.Gen.KernelIdeal.Skeleton

/-!
  One vector subcore's share of the bank update, for worker number `w = 2·s + c` (subcore `s` of
  SparseCore `c`): rows `512·w … 512·w + 511` of each output take the same rows of the new
  embeddings; rows `16384 + 2608·w …` (2608 of them) and, for `w < 20`, rows `99840 + 8·w …` (8 of
  them) take the same rows of the old bank. Each copy has a semaphore of its own and nothing touches a
  copy's ends while it is in flight, so every copy lands exactly its source rows; on each piece that is
  the updated bank `bankUpdate bank batch`, because rows below 16384 of the update are the batch and
  rows from 16384 on are the bank.
-/

noncomputable section

namespace Cert.Proof.KernelIdealRun

open Cert.KernelIdeal Cert.KernelIdeal.Gen Cert.Proof.BankSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and the pieces a vector subcore moves -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev o0Loc (d : Dev nD) : Loc nD τ sig := (SparseCore.T d).loc main_v0_0
abbrev o1Loc (d : Dev nD) : Loc nD τ sig := (SparseCore.T d).loc main_v0_1

abbrev A0 : Memref sig .scVector .hbm S16384x128 .f32 := Memref.whole main_arg0_scv
abbrev A1 : Memref sig .scVector .hbm S16384x128 .f32 := Memref.whole main_arg1_scv
abbrev A2 : Memref sig .scVector .hbm S100000x128 .f32 := Memref.whole main_arg2_scv
abbrev A3 : Memref sig .scVector .hbm S100000x128 .f32 := Memref.whole main_arg3_scv
abbrev O0 : Memref sig .scVector .hbm S100000x128 .f32 := Memref.whole main_v0_0_scv
abbrev O1 : Memref sig .scVector .hbm S100000x128 .f32 := Memref.whole main_v0_1_scv

/-- The output rows that take the new embeddings; the rows of the batch they come from; the rows of the bank copied
    through in the big share; and, for the first twenty workers, the eight leftover rows. -/
abbrev rE (L : grid0.Coords) : Rect S100000x128 := Rect.unit (s := S100000x128) (k0_off1 L) S512x128.size (k0_off1_inb L)
abbrev rS (L : grid0.Coords) : Rect S16384x128 := Rect.unit (s := S16384x128) (k0_off2 L) S512x128.size (k0_off2_inb L)
abbrev rT (L : grid0.Coords) : Rect S100000x128 := Rect.unit (s := S100000x128) (k0_off3 L) S2608x128.size (k0_off3_inb L)
abbrev rR (L : grid0.Coords) (h : k0_cond1 L = 1#1) : Rect S100000x128 := Rect.unit (s := S100000x128) (k0_off4 L) S8x128.size (k0_off4_inb L h)

/-- The leftover rows of worker `L` as a set of the bank's indices, whether or not the worker has any: past worker 19 the
    rows would lie beyond the bank, and the set is empty. -/
def setR (L : grid0.Coords) : Finset S100000x128.Idx :=
  Finset.univ.filter fun i => (k0_off4 L) 0 ≤ (i 0).val ∧ (i 0).val < (k0_off4 L) 0 + 8

/-- The worker's number decides whether it has leftover rows. -/
theorem cond_iff : ∀ L : grid0.Coords, k0_cond1 L = 1#1 ↔ 2 * (L 1).val + (L 0).val < 20 := by decide +kernel

theorem setR_eq (L : grid0.Coords) (hc : k0_cond1 L = 1#1) : setR L = (rR L hc).set := by
  ext i
  rw [setR, Finset.mem_filter, Rect.mem_set_unit]
  constructor
  · rintro ⟨-, h⟩ a
    match a with
    | ⟨0, _⟩ => exact h
    | ⟨1, _⟩ =>
      have e : (k0_off4 L) 1 = 0 := by rw [k0_off4_eq]; rfl
      have hi : (i 1).val < 128 := (i 1).isLt
      show (k0_off4 L) 1 ≤ (i 1).val ∧ (i 1).val < (k0_off4 L) 1 + 128
      omega
  · intro h
    exact ⟨Finset.mem_univ _, h 0⟩

theorem setR_empty (L : grid0.Coords) (hc : ¬ k0_cond1 L = 1#1) : setR L = ∅ := by
  have hw := (cond_iff L).not.mp hc
  ext i
  rw [setR, Finset.mem_filter]
  have e : (k0_off4 L) 0 = 16 * (L 1).val + 8 * (L 0).val + 99840 := by rw [k0_off4_eq]; rfl
  have hi : (i 0).val < 100000 := (i 0).isLt
  constructor
  · rintro ⟨-, h⟩; omega
  · intro h; exact absurd h (Finset.notMem_empty _)

/-! ## The value on each piece: the update is the batch below row 16384 and the bank from there on -/

theorem lowE {α : Type} (L : grid0.Coords) (x : S100000x128.Idx → α) (u : S16384x128.Idx → α) (y : S512x128.Idx) :
    bankUpdate x u ((rE L).emb y) = u ((rS L).emb y) := by
  refine bankUpdate_low x u _ _ ?_ ?_
  · show (k0_off2 L) 0 + 1 * (y 0).val = (k0_off1 L) 0 + 1 * (y 0).val
    rw [k0_off1_eq, k0_off2_eq]
  · show (k0_off2 L) 1 + 1 * (y 1).val = (k0_off1 L) 1 + 1 * (y 1).val
    rw [k0_off1_eq, k0_off2_eq]

theorem highT {α : Type} (L : grid0.Coords) (x : S100000x128.Idx → α) (u : S16384x128.Idx → α) (y : S2608x128.Idx) :
    bankUpdate x u ((rT L).emb y) = x ((rT L).emb y) := by
  refine bankUpdate_high x u _ ?_
  show 16384 ≤ (k0_off3 L) 0 + 1 * (y 0).val
  have e : (k0_off3 L) 0 = 5216 * (L 1).val + 2608 * (L 0).val + 16384 := by rw [k0_off3_eq]; rfl
  omega

theorem highR {α : Type} (L : grid0.Coords) (hc : k0_cond1 L = 1#1) (x : S100000x128.Idx → α) (u : S16384x128.Idx → α) (y : S8x128.Idx) :
    bankUpdate x u ((rR L hc).emb y) = x ((rR L hc).emb y) := by
  refine bankUpdate_high x u _ ?_
  show 16384 ≤ (k0_off4 L) 0 + 1 * (y 0).val
  have e : (k0_off4 L) 0 = 16 * (L 1).val + 8 * (L 0).val + 99840 := by rw [k0_off4_eq]; rfl
  omega

/-- The two results: each bank with its batch laid over the first 16384 rows. -/
def G0 (d : Dev nD) : Buf (Elt F) (o0Loc d) := bankUpdate (m (a2Loc d) : S100000x128.Idx → Elt F .f32) (m (a0Loc d) : S16384x128.Idx → Elt F .f32)
def G1 (d : Dev nD) : Buf (Elt F) (o1Loc d) := bankUpdate (m (a3Loc d) : S100000x128.Idx → Elt F .f32) (m (a1Loc d) : S16384x128.Idx → Elt F .f32)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A slice of an array held by exactly its own elements, as the subcore addresses it. -/
abbrev own {S : Shape} (M : Memref sig .scVector .hbm S .f32) (f : Buf (Elt F) (M.view.loc (thr d L))) : sProp 𝕄 :=
  M.view.loc (thr d L) ↦[M.view.set]{fullShare} f

abbrev cell (k : DmaSems sig S_) : GSem nD τ sig := (thr d L, .dma k.sem)

/-- A slice of a whole array, held by its own elements, is the array's points-to on the rectangle's elements. -/
theorem own_A0 (r : Rect S16384x128) (hr : ∀ a, r.stride a = 1) (f : Buf (Elt F) (a0Loc d)) :
    own d L (A0.slice r hr) f = (a0Loc d ↦[r.set]{fullShare} f : sProp 𝕄) := by
  show ((a0Loc d) ↦[((View.whole main_arg0_scv).slice r).set]{fullShare} f : sProp 𝕄) = _
  rw [View.set_slice_whole]
theorem own_A1 (r : Rect S16384x128) (hr : ∀ a, r.stride a = 1) (f : Buf (Elt F) (a1Loc d)) :
    own d L (A1.slice r hr) f = (a1Loc d ↦[r.set]{fullShare} f : sProp 𝕄) := by
  show ((a1Loc d) ↦[((View.whole main_arg1_scv).slice r).set]{fullShare} f : sProp 𝕄) = _
  rw [View.set_slice_whole]
theorem own_A2 (r : Rect S100000x128) (hr : ∀ a, r.stride a = 1) (f : Buf (Elt F) (a2Loc d)) :
    own d L (A2.slice r hr) f = (a2Loc d ↦[r.set]{fullShare} f : sProp 𝕄) := by
  show ((a2Loc d) ↦[((View.whole main_arg2_scv).slice r).set]{fullShare} f : sProp 𝕄) = _
  rw [View.set_slice_whole]
theorem own_A3 (r : Rect S100000x128) (hr : ∀ a, r.stride a = 1) (f : Buf (Elt F) (a3Loc d)) :
    own d L (A3.slice r hr) f = (a3Loc d ↦[r.set]{fullShare} f : sProp 𝕄) := by
  show ((a3Loc d) ↦[((View.whole main_arg3_scv).slice r).set]{fullShare} f : sProp 𝕄) = _
  rw [View.set_slice_whole]
theorem own_O0 (r : Rect S100000x128) (hr : ∀ a, r.stride a = 1) (f : Buf (Elt F) (o0Loc d)) :
    own d L (O0.slice r hr) f = (o0Loc d ↦[r.set]{fullShare} f : sProp 𝕄) := by
  show ((o0Loc d) ↦[((View.whole main_v0_0_scv).slice r).set]{fullShare} f : sProp 𝕄) = _
  rw [View.set_slice_whole]
theorem own_O1 (r : Rect S100000x128) (hr : ∀ a, r.stride a = 1) (f : Buf (Elt F) (o1Loc d)) :
    own d L (O1.slice r hr) f = (o1Loc d ↦[r.set]{fullShare} f : sProp 𝕄) := by
  show ((o1Loc d) ↦[((View.whole main_v0_1_scv).slice r).set]{fullShare} f : sProp 𝕄) = _
  rw [View.set_slice_whole]

theorem readE0 (x : S512x128.Idx) :
    (O0.slice (rE L) (fun _ => rfl)).view.read (Elt F) (G0 m d) x = (A0.slice (rS L) (fun _ => rfl)).view.read (Elt F) (m (a0Loc d)) x :=
  ((View.read_apply _ _).trans (cast_eq _ _)).trans ((lowE L _ _ x).trans ((View.read_apply _ _).trans (cast_eq _ _)).symm)
theorem readT0 (x : S2608x128.Idx) :
    (O0.slice (rT L) (fun _ => rfl)).view.read (Elt F) (G0 m d) x = (A2.slice (rT L) (fun _ => rfl)).view.read (Elt F) (m (a2Loc d)) x :=
  ((View.read_apply _ _).trans (cast_eq _ _)).trans ((highT L _ _ x).trans ((View.read_apply _ _).trans (cast_eq _ _)).symm)
theorem readR0 (hc : k0_cond1 L = 1#1) (x : S8x128.Idx) :
    (O0.slice (rR L hc) (fun _ => rfl)).view.read (Elt F) (G0 m d) x = (A2.slice (rR L hc) (fun _ => rfl)).view.read (Elt F) (m (a2Loc d)) x :=
  ((View.read_apply _ _).trans (cast_eq _ _)).trans ((highR L hc _ _ x).trans ((View.read_apply _ _).trans (cast_eq _ _)).symm)

/-- What the copies land, piece by piece, is the updated bank on that piece. -/
theorem pieceE0 (w : S512x128.Idx → Elt F .f32) (hw : w = (A0.slice (rS L) (fun _ => rfl)).view.read (Elt F) (m (a0Loc d))) :
    own d L (O0.slice (rE L) (fun _ => rfl)) ((O0.slice (rE L) (fun _ => rfl)).view.writes (Elt F) (m (o0Loc d)) [⟨Rect.whole _, w⟩])
      = (o0Loc d ↦[(rE L).set]{fullShare} G0 m d : sProp 𝕄) := by
  subst hw
  refine (View.pointsTo_writes_whole_congr (thr d L) (O0.slice (rE L) (fun _ => rfl)).view fullShare _ (G0 m d) _ (readE0 m d L)).trans ?_
  exact own_O0 d L (rE L) _ _
theorem pieceT0 (w : S2608x128.Idx → Elt F .f32) (hw : w = (A2.slice (rT L) (fun _ => rfl)).view.read (Elt F) (m (a2Loc d))) :
    own d L (O0.slice (rT L) (fun _ => rfl)) ((O0.slice (rT L) (fun _ => rfl)).view.writes (Elt F) (m (o0Loc d)) [⟨Rect.whole _, w⟩])
      = (o0Loc d ↦[(rT L).set]{fullShare} G0 m d : sProp 𝕄) := by
  subst hw
  refine (View.pointsTo_writes_whole_congr (thr d L) (O0.slice (rT L) (fun _ => rfl)).view fullShare _ (G0 m d) _ (readT0 m d L)).trans ?_
  exact own_O0 d L (rT L) _ _
theorem pieceR0 (hc : k0_cond1 L = 1#1) (w : S8x128.Idx → Elt F .f32) (hw : w = (A2.slice (rR L hc) (fun _ => rfl)).view.read (Elt F) (m (a2Loc d))) :
    own d L (O0.slice (rR L hc) (fun _ => rfl)) ((O0.slice (rR L hc) (fun _ => rfl)).view.writes (Elt F) (m (o0Loc d)) [⟨Rect.whole _, w⟩])
      = (o0Loc d ↦[setR L]{fullShare} G0 m d : sProp 𝕄) := by
  subst hw
  refine (View.pointsTo_writes_whole_congr (thr d L) (O0.slice (rR L hc) (fun _ => rfl)).view fullShare _ (G0 m d) _ (readR0 m d L hc)).trans ?_
  rw [setR_eq L hc]
  exact own_O0 d L (rR L hc) _ _

theorem readE1 (x : S512x128.Idx) :
    (O1.slice (rE L) (fun _ => rfl)).view.read (Elt F) (G1 m d) x = (A1.slice (rS L) (fun _ => rfl)).view.read (Elt F) (m (a1Loc d)) x :=
  ((View.read_apply _ _).trans (cast_eq _ _)).trans ((lowE L _ _ x).trans ((View.read_apply _ _).trans (cast_eq _ _)).symm)
theorem readT1 (x : S2608x128.Idx) :
    (O1.slice (rT L) (fun _ => rfl)).view.read (Elt F) (G1 m d) x = (A3.slice (rT L) (fun _ => rfl)).view.read (Elt F) (m (a3Loc d)) x :=
  ((View.read_apply _ _).trans (cast_eq _ _)).trans ((highT L _ _ x).trans ((View.read_apply _ _).trans (cast_eq _ _)).symm)
theorem readR1 (hc : k0_cond1 L = 1#1) (x : S8x128.Idx) :
    (O1.slice (rR L hc) (fun _ => rfl)).view.read (Elt F) (G1 m d) x = (A3.slice (rR L hc) (fun _ => rfl)).view.read (Elt F) (m (a3Loc d)) x :=
  ((View.read_apply _ _).trans (cast_eq _ _)).trans ((highR L hc _ _ x).trans ((View.read_apply _ _).trans (cast_eq _ _)).symm)

/-- What the copies land, piece by piece, is the updated bank on that piece. -/
theorem pieceE1 (w : S512x128.Idx → Elt F .f32) (hw : w = (A1.slice (rS L) (fun _ => rfl)).view.read (Elt F) (m (a1Loc d))) :
    own d L (O1.slice (rE L) (fun _ => rfl)) ((O1.slice (rE L) (fun _ => rfl)).view.writes (Elt F) (m (o1Loc d)) [⟨Rect.whole _, w⟩])
      = (o1Loc d ↦[(rE L).set]{fullShare} G1 m d : sProp 𝕄) := by
  subst hw
  refine (View.pointsTo_writes_whole_congr (thr d L) (O1.slice (rE L) (fun _ => rfl)).view fullShare _ (G1 m d) _ (readE1 m d L)).trans ?_
  exact own_O1 d L (rE L) _ _
theorem pieceT1 (w : S2608x128.Idx → Elt F .f32) (hw : w = (A3.slice (rT L) (fun _ => rfl)).view.read (Elt F) (m (a3Loc d))) :
    own d L (O1.slice (rT L) (fun _ => rfl)) ((O1.slice (rT L) (fun _ => rfl)).view.writes (Elt F) (m (o1Loc d)) [⟨Rect.whole _, w⟩])
      = (o1Loc d ↦[(rT L).set]{fullShare} G1 m d : sProp 𝕄) := by
  subst hw
  refine (View.pointsTo_writes_whole_congr (thr d L) (O1.slice (rT L) (fun _ => rfl)).view fullShare _ (G1 m d) _ (readT1 m d L)).trans ?_
  exact own_O1 d L (rT L) _ _
theorem pieceR1 (hc : k0_cond1 L = 1#1) (w : S8x128.Idx → Elt F .f32) (hw : w = (A3.slice (rR L hc) (fun _ => rfl)).view.read (Elt F) (m (a3Loc d))) :
    own d L (O1.slice (rR L hc) (fun _ => rfl)) ((O1.slice (rR L hc) (fun _ => rfl)).view.writes (Elt F) (m (o1Loc d)) [⟨Rect.whole _, w⟩])
      = (o1Loc d ↦[setR L]{fullShare} G1 m d : sProp 𝕄) := by
  subst hw
  refine (View.pointsTo_writes_whole_congr (thr d L) (O1.slice (rR L hc) (fun _ => rfl)).view fullShare _ (G1 m d) _ (readR1 m d L hc)).trans ?_
  rw [setR_eq L hc]
  exact own_O1 d L (rR L hc) _ _

end Tile

end Cert.Proof.KernelIdealRun

end
-- ==== Proof.KernelIdealBody.lean ====
import proofs.«210836_g79860621902670_cont_9to1_m_360_5_alg».proof.Proof.KernelIdealTile

/-!
  The task of one vector subcore, run: from its pieces of the six arrays (the batch and bank rows it
  reads, the output rows it writes, at their launch contents) and its six semaphores at zero, the four
  copies start, the two leftover copies start and are waited for where the worker has leftover rows, the
  four waits return; each output piece then holds the updated bank, the input pieces are unchanged,
  the semaphores are back at zero.
-/

noncomputable section

namespace Cert.Proof.KernelIdealRun

open Cert.KernelIdeal Cert.KernelIdeal.Gen Cert.Proof.BankSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

/-- The leftover pieces, stated on `setR`, as the subcore addresses them where it has leftover rows; -/
theorem ownR_A2 (hc : k0_cond1 L = 1#1) (f : Buf (Elt F) (a2Loc d)) :
    own d L (A2.slice (rR L hc) (fun _ => rfl)) f = (a2Loc d ↦[setR L]{fullShare} f : sProp 𝕄) := by
  rw [setR_eq L hc]; exact own_A2 d L (rR L hc) _ _
theorem ownR_A3 (hc : k0_cond1 L = 1#1) (f : Buf (Elt F) (a3Loc d)) :
    own d L (A3.slice (rR L hc) (fun _ => rfl)) f = (a3Loc d ↦[setR L]{fullShare} f : sProp 𝕄) := by
  rw [setR_eq L hc]; exact own_A3 d L (rR L hc) _ _
theorem ownR_O0 (hc : k0_cond1 L = 1#1) (f : Buf (Elt F) (o0Loc d)) :
    own d L (O0.slice (rR L hc) (fun _ => rfl)) f = (o0Loc d ↦[setR L]{fullShare} f : sProp 𝕄) := by
  rw [setR_eq L hc]; exact own_O0 d L (rR L hc) _ _
theorem ownR_O1 (hc : k0_cond1 L = 1#1) (f : Buf (Elt F) (o1Loc d)) :
    own d L (O1.slice (rR L hc) (fun _ => rfl)) f = (o1Loc d ↦[setR L]{fullShare} f : sProp 𝕄) := by
  rw [setR_eq L hc]; exact own_O1 d L (rR L hc) _ _
/-- and where it has none: no element, so any contents. -/
theorem noneR_O0 (hc : ¬ k0_cond1 L = 1#1) (f g : Buf (Elt F) (o0Loc d)) :
    (o0Loc d ↦[setR L]{fullShare} f : sProp 𝕄) = (o0Loc d ↦[setR L]{fullShare} g) :=
  pointsTo_congr fun i hi => absurd (setR_empty L hc ▸ hi) (Finset.notMem_empty _)
theorem noneR_O1 (hc : ¬ k0_cond1 L = 1#1) (f g : Buf (Elt F) (o1Loc d)) :
    (o1Loc d ↦[setR L]{fullShare} f : sProp 𝕄) = (o1Loc d ↦[setR L]{fullShare} g) :=
  pointsTo_congr fun i hi => absurd (setR_empty L hc ▸ hi) (Finset.notMem_empty _)

/-- What worker `L` holds of the six arrays: its rows of the two batches and of the two banks (big share and leftover
    rows) at the launch contents, its rows of the two outputs at `g0`, `g1`. -/
def res (g0 : Buf (Elt F) (o0Loc d)) (g1 : Buf (Elt F) (o1Loc d)) : sProp 𝕄 :=
  iprop((a0Loc d ↦[(rS L).set]{fullShare} m (a0Loc d)) ∗ (a1Loc d ↦[(rS L).set]{fullShare} m (a1Loc d))
    ∗ (a2Loc d ↦[(rT L).set]{fullShare} m (a2Loc d)) ∗ (a3Loc d ↦[(rT L).set]{fullShare} m (a3Loc d))
    ∗ (a2Loc d ↦[setR L]{fullShare} m (a2Loc d)) ∗ (a3Loc d ↦[setR L]{fullShare} m (a3Loc d))
    ∗ (o0Loc d ↦[(rE L).set]{fullShare} g0) ∗ (o1Loc d ↦[(rE L).set]{fullShare} g1)
    ∗ (o0Loc d ↦[(rT L).set]{fullShare} g0) ∗ (o1Loc d ↦[(rT L).set]{fullShare} g1)
    ∗ (o0Loc d ↦[setR L]{fullShare} g0) ∗ (o1Loc d ↦[setR L]{fullShare} g1))

instance res_storable (g0 : Buf (Elt F) (o0Loc d)) (g1 : Buf (Elt F) (o1Loc d)) : BI.Storable (upEmb : UEmb _ 𝕄) (res m d L g0 g1) := by
  unfold res; infer_instance

/-- The subcore's six DMA semaphores. -/
def sixSems : Finset (SemLoc sig) :=
  {.dma cc0_scratch0.sem, .dma cc0_scratch1.sem, .dma cc0_scratch2.sem, .dma cc0_scratch3.sem, .dma cc0_scratch4.sem, .dma cc0_scratch5.sem}
def cellEmb : SemLoc sig ↪ GSem nD τ sig := ⟨fun sm => (thr d L, sm), fun _ _ e => (Prod.mk.inj e).2⟩

omit [FloatOps F] in
theorem six_sub : sixSems.map (cellEmb d L) ⊆ ownCells (thr d L) := by
  intro g hg
  obtain ⟨sm, hsm, rfl⟩ := Finset.mem_map.mp hg
  refine mem_ownCells.mpr ⟨rfl, ?_⟩
  have h : ∀ sm ∈ (sixSems : Finset (SemLoc sig)), sm.isScoped .scVector = true := by decide
  exact h sm hsm

omit [FloatOps F] in
/-- They are among the subcore's scoped semaphores: at zero at its entry, to be at zero at its exit. -/
theorem ownSems0_six :
    (ownSems0 (thr d L) : sProp 𝕄)
      = iprop((semVal (cell d L cc0_scratch0) 0 ∗ semVal (cell d L cc0_scratch1) 0 ∗ semVal (cell d L cc0_scratch2) 0
          ∗ semVal (cell d L cc0_scratch3) 0 ∗ semVal (cell d L cc0_scratch4) 0 ∗ semVal (cell d L cc0_scratch5) 0)
          ∗ bigSep (ownCells (thr d L) \ sixSems.map (cellEmb d L)) fun g => semVal g 0) := by
  unfold SparseCore.Cfg.ownSems0
  rw [SparseCore.bigSep_sdiff_split' (six_sub d L), bigSep_map]
  unfold sixSems
  rw [SparseCore.bigSep_insert' (by decide), SparseCore.bigSep_insert' (by decide), SparseCore.bigSep_insert' (by decide),
    SparseCore.bigSep_insert' (by decide), SparseCore.bigSep_insert' (by decide), bigSep_singleton]
  rfl

/-- The task on vector subcore `L` of device `d`. -/
theorem tile_body (O : CellTallies nD τ sig (HIx 1)) (W : Waits sig (HIx 1)) (hO : ∀ g, O g none = 0) :
    iprop(levAts (K (F := F)).L (K (F := F)).lev ∗ emp ∗ res m d L (m (o0Loc d)) (m (o1Loc d))
        ∗ scopedBufs (thr d L) ∗ scopedSems0 (thr d L) ∗ owes (thr d L) O W)
      ⊢ wp frame (wpE (defs₀ (F := F)) 𝒱₀ (thr d L) none) Set.univ
          (cc0__bank_update L A0 (Memref.isWhole_whole _) A1 (Memref.isWhole_whole _) A2 (Memref.isWhole_whole _) A3 (Memref.isWhole_whole _)
            O0 (Memref.isWhole_whole _) O1 (Memref.isWhole_whole _) cc0_scratch0 cc0_scratch1 cc0_scratch2 cc0_scratch3 cc0_scratch4 cc0_scratch5)
          fun _ => iprop(res m d L (G0 m d) (G1 m d) ∗ scopedBufs (thr d L) ∗ scopedSems0 (thr d L)
            ∗ ∃ W', ⌜∀ p ∈ W', p ∈ W ∨ p.2 = none⌝ ∗ owes (thr d L) O W') := by
  simp only [cc0__bank_update_eq_skeleton]; unfold cc0__bank_update_skel
  simp only [k0_part1_eq_skeleton]; unfold k0_part1_skel
  rw [SparseCore.Cfg.scopedSems0_V (Val := Elt F) d (cV L) (jV L), ownSems0_six]
  unfold res
  by_cases hc : k0_cond1 L = 1#1
  · rw [dif_pos hc]
    iintro ⟨#Hlv, -, ⟨Ha0, Ha1, Ha2, Ha3, Hr2, Hr3, HoE0, HoE1, HoT0, HoT1, HoR0, HoR1⟩, Hsb, ⟨⟨Hs0, Hs1, Hs2, Hs3, Hs4, Hs5⟩, Hsems⟩, HO⟩
    ihave Hmw := ((K (F := F)).mayWaits_none (thr := thr d L) hO) $$ Hlv
    ihave Ha0 := (Entails.of_eq (own_A0 d L (rS L) (fun _ => rfl) _).symm) $$ Ha0
    ihave Ha1 := (Entails.of_eq (own_A1 d L (rS L) (fun _ => rfl) _).symm) $$ Ha1
    ihave Ha2 := (Entails.of_eq (own_A2 d L (rT L) (fun _ => rfl) _).symm) $$ Ha2
    ihave Ha3 := (Entails.of_eq (own_A3 d L (rT L) (fun _ => rfl) _).symm) $$ Ha3
    ihave HoE0 := (Entails.of_eq (own_O0 d L (rE L) (fun _ => rfl) _).symm) $$ HoE0
    ihave HoE1 := (Entails.of_eq (own_O1 d L (rE L) (fun _ => rfl) _).symm) $$ HoE1
    ihave HoT0 := (Entails.of_eq (own_O0 d L (rT L) (fun _ => rfl) _).symm) $$ HoT0
    ihave HoT1 := (Entails.of_eq (own_O1 d L (rT L) (fun _ => rfl) _).symm) $$ HoT1
    ihave Hr2 := (Entails.of_eq (ownR_A2 d L hc _).symm) $$ Hr2
    ihave Hr3 := (Entails.of_eq (ownR_A3 d L hc _).symm) $$ Hr3
    ihave HoR0 := (Entails.of_eq (ownR_O0 d L hc _).symm) $$ HoR0
    ihave HoR1 := (Entails.of_eq (ownR_O1 d L hc _).symm) $$ HoR1
    sl_exec
    sl_step
    isplitl [Ha0 Ha1 Ha2 Ha3 Hr2 Hr3 HoE0 HoE1 HoT0 HoT1 HoR0 HoR1]
    · isplitl [Ha0]; · iapply (Entails.of_eq (own_A0 d L (rS L) (fun _ => rfl) _)); iexact Ha0
      isplitl [Ha1]; · iapply (Entails.of_eq (own_A1 d L (rS L) (fun _ => rfl) _)); iexact Ha1
      isplitl [Ha2]; · iapply (Entails.of_eq (own_A2 d L (rT L) (fun _ => rfl) _)); iexact Ha2
      isplitl [Ha3]; · iapply (Entails.of_eq (own_A3 d L (rT L) (fun _ => rfl) _)); iexact Ha3
      isplitl [Hr2]; · iapply (Entails.of_eq (ownR_A2 d L hc _)); iexact Hr2
      isplitl [Hr3]; · iapply (Entails.of_eq (ownR_A3 d L hc _)); iexact Hr3
      isplitl [HoE0]; · iapply (Entails.of_eq (pieceE0 m d L _ rfl)); iexact HoE0
      isplitl [HoE1]; · iapply (Entails.of_eq (pieceE1 m d L _ rfl)); iexact HoE1
      isplitl [HoT0]; · iapply (Entails.of_eq (pieceT0 m d L _ rfl)); iexact HoT0
      isplitl [HoT1]; · iapply (Entails.of_eq (pieceT1 m d L _ rfl)); iexact HoT1
      isplitl [HoR0]; · iapply (Entails.of_eq (pieceR0 m d L hc _ rfl)); iexact HoR0
      iapply (Entails.of_eq (pieceR1 m d L hc _ rfl)); iexact HoR1
    isplitl [Hsb]; · iexact Hsb
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  · rw [dif_neg hc]
    iintro ⟨#Hlv, -, ⟨Ha0, Ha1, Ha2, Ha3, Hr2, Hr3, HoE0, HoE1, HoT0, HoT1, HoR0, HoR1⟩, Hsb, ⟨⟨Hs0, Hs1, Hs2, Hs3, Hs4, Hs5⟩, Hsems⟩, HO⟩
    ihave Hmw := ((K (F := F)).mayWaits_none (thr := thr d L) hO) $$ Hlv
    ihave Ha0 := (Entails.of_eq (own_A0 d L (rS L) (fun _ => rfl) _).symm) $$ Ha0
    ihave Ha1 := (Entails.of_eq (own_A1 d L (rS L) (fun _ => rfl) _).symm) $$ Ha1
    ihave Ha2 := (Entails.of_eq (own_A2 d L (rT L) (fun _ => rfl) _).symm) $$ Ha2
    ihave Ha3 := (Entails.of_eq (own_A3 d L (rT L) (fun _ => rfl) _).symm) $$ Ha3
    ihave HoE0 := (Entails.of_eq (own_O0 d L (rE L) (fun _ => rfl) _).symm) $$ HoE0
    ihave HoE1 := (Entails.of_eq (own_O1 d L (rE L) (fun _ => rfl) _).symm) $$ HoE1
    ihave HoT0 := (Entails.of_eq (own_O0 d L (rT L) (fun _ => rfl) _).symm) $$ HoT0
    ihave HoT1 := (Entails.of_eq (own_O1 d L (rT L) (fun _ => rfl) _).symm) $$ HoT1
    sl_exec
    sl_step
    isplitl [Ha0 Ha1 Ha2 Ha3 Hr2 Hr3 HoE0 HoE1 HoT0 HoT1 HoR0 HoR1]
    · isplitl [Ha0]; · iapply (Entails.of_eq (own_A0 d L (rS L) (fun _ => rfl) _)); iexact Ha0
      isplitl [Ha1]; · iapply (Entails.of_eq (own_A1 d L (rS L) (fun _ => rfl) _)); iexact Ha1
      isplitl [Ha2]; · iapply (Entails.of_eq (own_A2 d L (rT L) (fun _ => rfl) _)); iexact Ha2
      isplitl [Ha3]; · iapply (Entails.of_eq (own_A3 d L (rT L) (fun _ => rfl) _)); iexact Ha3
      isplitl [Hr2]; · iexact Hr2
      isplitl [Hr3]; · iexact Hr3
      isplitl [HoE0]; · iapply (Entails.of_eq (pieceE0 m d L _ rfl)); iexact HoE0
      isplitl [HoE1]; · iapply (Entails.of_eq (pieceE1 m d L _ rfl)); iexact HoE1
      isplitl [HoT0]; · iapply (Entails.of_eq (pieceT0 m d L _ rfl)); iexact HoT0
      isplitl [HoT1]; · iapply (Entails.of_eq (pieceT1 m d L _ rfl)); iexact HoT1
      isplitl [HoR0]; · iapply (Entails.of_eq (noneR_O0 d L hc _ _)); iexact HoR0
      iapply (Entails.of_eq (noneR_O1 d L hc _ _)); iexact HoR1
    isplitl [Hsb]; · iexact Hsb
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Tile

end Cert.Proof.KernelIdealRun

end
-- ==== Proof.KernelIdealCover.lean ====
import proofs.«210836_g79860621902670_cont_9to1_m_360_5_alg».proof.Proof.KernelIdealTile

/-!
  The thirty-two workers' pieces tile the arrays. With worker number `w = 2·s + c`: the batch rows
  `512·w …` tile the 16384 rows of a batch; in a bank-shaped array the rows `512·w …` (the batch's
  landing rows) fill rows `0 … 16383`, the rows `16384 + 2608·w …` fill `16384 … 99839`, and the
  rows `99840 + 8·w …` of the first twenty workers fill `99840 … 99999`. So an array held whole is
  the separating sum of its pieces, and the pieces of the outputs, all holding one function, join to
  the outputs held whole at that function.
-/

noncomputable section

namespace Cert.Proof.KernelIdealRun

open Cert.KernelIdeal Cert.KernelIdeal.Gen Cert.Proof.BankSpec

open Idealize.ShloMosaic
open Idealize.SL Idealize.SL.RA Idealize.SL.BI
open scoped Idealize.SL.BI
open Idealize.SL.BI.BIBase Idealize.SL.BI.Laws Idealize.SL.ProofMode Idealize.SL.Sem

/-- A worker: SparseCore and vector subcore. -/
abbrev Wk : Type := Fin 2 × Fin 16

def coordsV (c : Fin (grid0.bound 0)) (s : Fin (grid0.bound 1)) : grid0.Coords :=
  fun | 0 => c | 1 => s | ⟨_ + 2, h⟩ => absurd h (Nat.not_lt.2 (Nat.le_add_left _ _))

/-- The worker's grid coordinates. -/
def Lp (p : Wk) : grid0.Coords := coordsV p.1 p.2

theorem Lp0 (p : Wk) : ((Lp p) 0).val = p.1.val := rfl
theorem Lp1 (p : Wk) : ((Lp p) 1).val = p.2.val := rfl

/-- A block of whole rows of a two-axis array of 128 columns: an index is in it when its row is. -/
theorem mem_unit_rows {n k : Nat} (off : Fin 2 → Nat) (inb : ∀ a, off a + (![k, 128] : Fin 2 → Nat) a ≤ (⟨2, ![n, 128]⟩ : Shape).size a)
    (h1 : off 1 = 0) (i : (⟨2, ![n, 128]⟩ : Shape).Idx) :
    i ∈ (Rect.unit (s := ⟨2, ![n, 128]⟩) off ![k, 128] inb).set ↔ off 0 ≤ (i 0).val ∧ (i 0).val < off 0 + k := by
  rw [Rect.mem_set_unit]
  constructor
  · intro h; exact h 0
  · intro h a
    match a with
    | ⟨0, _⟩ => exact h
    | ⟨1, _⟩ =>
      have hi : (i 1).val < 128 := (i 1).isLt
      show off 1 ≤ (i 1).val ∧ (i 1).val < off 1 + 128
      omega

theorem off1_0 (L : grid0.Coords) : (k0_off1 L) 0 = 1024 * (L 1).val + 512 * (L 0).val := by rw [k0_off1_eq]; rfl
theorem off1_1 (L : grid0.Coords) : (k0_off1 L) 1 = 0 := by rw [k0_off1_eq]; rfl
theorem off2_0 (L : grid0.Coords) : (k0_off2 L) 0 = 1024 * (L 1).val + 512 * (L 0).val := by rw [k0_off2_eq]; rfl
theorem off2_1 (L : grid0.Coords) : (k0_off2 L) 1 = 0 := by rw [k0_off2_eq]; rfl
theorem off3_0 (L : grid0.Coords) : (k0_off3 L) 0 = 5216 * (L 1).val + 2608 * (L 0).val + 16384 := by rw [k0_off3_eq]; rfl
theorem off3_1 (L : grid0.Coords) : (k0_off3 L) 1 = 0 := by rw [k0_off3_eq]; rfl
theorem off4_0 (L : grid0.Coords) : (k0_off4 L) 0 = 16 * (L 1).val + 8 * (L 0).val + 99840 := by rw [k0_off4_eq]; rfl

theorem memE (p : Wk) (i : S100000x128.Idx) :
    i ∈ (rE (Lp p)).set ↔ 1024 * p.2.val + 512 * p.1.val ≤ (i 0).val ∧ (i 0).val < 1024 * p.2.val + 512 * p.1.val + 512 := by
  refine (mem_unit_rows (k0_off1 (Lp p)) _ (off1_1 _) i).trans ?_
  rw [off1_0, Lp0, Lp1]
theorem memS (p : Wk) (i : S16384x128.Idx) :
    i ∈ (rS (Lp p)).set ↔ 1024 * p.2.val + 512 * p.1.val ≤ (i 0).val ∧ (i 0).val < 1024 * p.2.val + 512 * p.1.val + 512 := by
  refine (mem_unit_rows (k0_off2 (Lp p)) _ (off2_1 _) i).trans ?_
  rw [off2_0, Lp0, Lp1]
theorem memT (p : Wk) (i : S100000x128.Idx) :
    i ∈ (rT (Lp p)).set ↔ 5216 * p.2.val + 2608 * p.1.val + 16384 ≤ (i 0).val ∧ (i 0).val < 5216 * p.2.val + 2608 * p.1.val + 16384 + 2608 := by
  refine (mem_unit_rows (k0_off3 (Lp p)) _ (off3_1 _) i).trans ?_
  rw [off3_0, Lp0, Lp1]
theorem memR (p : Wk) (i : S100000x128.Idx) :
    i ∈ setR (Lp p) ↔ 16 * p.2.val + 8 * p.1.val + 99840 ≤ (i 0).val ∧ (i 0).val < 16 * p.2.val + 8 * p.1.val + 99840 + 8 := by
  rw [setR, Finset.mem_filter, off4_0, Lp0, Lp1]
  exact ⟨fun h => h.2, fun h => ⟨Finset.mem_univ _, h⟩⟩

theorem wk_ne {p p' : Wk} (h : p ≠ p') : p.1.val ≠ p'.1.val ∨ p.2.val ≠ p'.2.val := by
  by_contra hh
  rw [not_or, not_not, not_not] at hh
  exact h (Prod.ext (Fin.ext hh.1) (Fin.ext hh.2))

/-- The landing rows of the batch, the big shares of the bank, the leftover rows: as sets of a bank-shaped array's indices. -/
def UE : Finset S100000x128.Idx := Finset.univ.biUnion fun p : Wk => (rE (Lp p)).set
def UT : Finset S100000x128.Idx := Finset.univ.biUnion fun p : Wk => (rT (Lp p)).set
def UR : Finset S100000x128.Idx := Finset.univ.biUnion fun p : Wk => setR (Lp p)

theorem disjE : ∀ p ∈ (Finset.univ : Finset Wk), ∀ p' ∈ (Finset.univ : Finset Wk), p ≠ p' → Disjoint (rE (Lp p)).set (rE (Lp p')).set := by
  intro p _ p' _ h
  refine Finset.disjoint_left.mpr fun i hi hj => ?_
  have h1 := (memE p i).mp hi; have h2 := (memE p' i).mp hj
  have := wk_ne h; have := p.1.isLt; have := p'.1.isLt
  omega
theorem disjS : ∀ p ∈ (Finset.univ : Finset Wk), ∀ p' ∈ (Finset.univ : Finset Wk), p ≠ p' → Disjoint (rS (Lp p)).set (rS (Lp p')).set := by
  intro p _ p' _ h
  refine Finset.disjoint_left.mpr fun i hi hj => ?_
  have h1 := (memS p i).mp hi; have h2 := (memS p' i).mp hj
  have := wk_ne h; have := p.1.isLt; have := p'.1.isLt
  omega
theorem disjT : ∀ p ∈ (Finset.univ : Finset Wk), ∀ p' ∈ (Finset.univ : Finset Wk), p ≠ p' → Disjoint (rT (Lp p)).set (rT (Lp p')).set := by
  intro p _ p' _ h
  refine Finset.disjoint_left.mpr fun i hi hj => ?_
  have h1 := (memT p i).mp hi; have h2 := (memT p' i).mp hj
  have := wk_ne h; have := p.1.isLt; have := p'.1.isLt
  omega
theorem disjR : ∀ p ∈ (Finset.univ : Finset Wk), ∀ p' ∈ (Finset.univ : Finset Wk), p ≠ p' → Disjoint (setR (Lp p)) (setR (Lp p')) := by
  intro p _ p' _ h
  refine Finset.disjoint_left.mpr fun i hi hj => ?_
  have h1 := (memR p i).mp hi; have h2 := (memR p' i).mp hj
  have := wk_ne h; have := p.1.isLt; have := p'.1.isLt
  omega

theorem memUE {i : S100000x128.Idx} : i ∈ UE ↔ (i 0).val < 16384 := by
  unfold UE
  rw [Finset.mem_biUnion]
  constructor
  · rintro ⟨p, -, hp⟩
    have h := (memE p i).mp hp; have := p.1.isLt; have := p.2.isLt
    omega
  · intro h
    refine ⟨(⟨((i 0).val / 512) % 2, Nat.mod_lt _ (by decide)⟩, ⟨(i 0).val / 1024, by omega⟩), Finset.mem_univ _, (memE _ i).mpr ?_⟩
    show 1024 * ((i 0).val / 1024) + 512 * (((i 0).val / 512) % 2) ≤ (i 0).val ∧ (i 0).val < 1024 * ((i 0).val / 1024) + 512 * (((i 0).val / 512) % 2) + 512
    omega
theorem memUT {i : S100000x128.Idx} : i ∈ UT ↔ 16384 ≤ (i 0).val ∧ (i 0).val < 99840 := by
  unfold UT
  rw [Finset.mem_biUnion]
  constructor
  · rintro ⟨p, -, hp⟩
    have h := (memT p i).mp hp; have := p.1.isLt; have := p.2.isLt
    omega
  · intro h
    refine ⟨(⟨(((i 0).val - 16384) / 2608) % 2, Nat.mod_lt _ (by decide)⟩, ⟨((i 0).val - 16384) / 5216, by omega⟩), Finset.mem_univ _, (memT _ i).mpr ?_⟩
    show 5216 * (((i 0).val - 16384) / 5216) + 2608 * ((((i 0).val - 16384) / 2608) % 2) + 16384 ≤ (i 0).val
      ∧ (i 0).val < 5216 * (((i 0).val - 16384) / 5216) + 2608 * ((((i 0).val - 16384) / 2608) % 2) + 16384 + 2608
    omega
theorem memUR {i : S100000x128.Idx} : i ∈ UR ↔ 99840 ≤ (i 0).val := by
  unfold UR
  rw [Finset.mem_biUnion]
  constructor
  · rintro ⟨p, -, hp⟩
    have h := (memR p i).mp hp
    omega
  · intro h
    have hi : (i 0).val < 100000 := (i 0).isLt
    refine ⟨(⟨(((i 0).val - 99840) / 8) % 2, Nat.mod_lt _ (by decide)⟩, ⟨((i 0).val - 99840) / 16, by omega⟩), Finset.mem_univ _, (memR _ i).mpr ?_⟩
    show 16 * (((i 0).val - 99840) / 16) + 8 * ((((i 0).val - 99840) / 8) % 2) + 99840 ≤ (i 0).val
      ∧ (i 0).val < 16 * (((i 0).val - 99840) / 16) + 8 * ((((i 0).val - 99840) / 8) % 2) + 99840 + 8
    omega

theorem coverS : (Finset.univ.biUnion fun p : Wk => (rS (Lp p)).set) = (Finset.univ : Finset S16384x128.Idx) := by
  refine Finset.eq_univ_iff_forall.mpr fun i => ?_
  have hi : (i 0).val < 16384 := (i 0).isLt
  refine Finset.mem_biUnion.mpr ⟨(⟨((i 0).val / 512) % 2, Nat.mod_lt _ (by decide)⟩, ⟨(i 0).val / 1024, by omega⟩), Finset.mem_univ _, (memS _ i).mpr ?_⟩
  show 1024 * ((i 0).val / 1024) + 512 * (((i 0).val / 512) % 2) ≤ (i 0).val ∧ (i 0).val < 1024 * ((i 0).val / 1024) + 512 * (((i 0).val / 512) % 2) + 512
  omega

theorem disj_E_TR : Disjoint UE (UT ∪ UR) :=
  Finset.disjoint_left.mpr fun i hi hj => by
    have h1 := memUE.mp hi
    rcases Finset.mem_union.mp hj with h | h
    · have := memUT.mp h; omega
    · have := memUR.mp h; omega
theorem disj_T_R : Disjoint UT UR :=
  Finset.disjoint_left.mpr fun i hi hj => by
    have := memUT.mp hi; have := memUR.mp hj; omega
theorem coverB : UE ∪ (UT ∪ UR) = (Finset.univ : Finset S100000x128.Idx) := by
  refine Finset.eq_univ_iff_forall.mpr fun i => ?_
  rw [Finset.mem_union, Finset.mem_union, memUE, memUT, memUR]
  omega

/-! ## The arrays held whole are their pieces -/

variable {F : FTy → Type}

local notation "𝕄" => MT nD τ sig (SparseCore.Cfg.HIx 1) (Elt F) ℕ UU ℕ

/-- A bank-shaped array held whole: its first 16384 rows, the big shares, the leftover rows. -/
theorem three_way {ℓ : Loc nD τ sig} (A B C : Finset (Idx ℓ)) (hA : Disjoint A (B ∪ C)) (hB : Disjoint B C) (hU : A ∪ (B ∪ C) = Finset.univ)
    (f : Buf (Elt F) ℓ) :
    (ℓ ↦[Finset.univ]{fullShare} f : sProp 𝕄) = iprop((ℓ ↦[A]{fullShare} f) ∗ (ℓ ↦[B]{fullShare} f) ∗ ℓ ↦[C]{fullShare} f) := by
  have h1 : (ℓ ↦[A ∪ (B ∪ C)]{fullShare} f : sProp 𝕄) ⊣⊢ iprop((ℓ ↦[A]{fullShare} f) ∗ ℓ ↦[B ∪ C]{fullShare} f) := pointsTo_union hA
  have h2 : (ℓ ↦[B ∪ C]{fullShare} f : sProp 𝕄) ⊣⊢ iprop((ℓ ↦[B]{fullShare} f) ∗ ℓ ↦[C]{fullShare} f) := pointsTo_union hB
  rw [← hU, BI.equiv_iff.mp ⟨h1.1, h1.2⟩, BI.equiv_iff.mp ⟨h2.1, h2.2⟩]

variable (d : Dev nD)

theorem split_o0 (f : Buf (Elt F) (o0Loc d)) :
    (o0Loc d ↦[Finset.univ]{fullShare} f : sProp 𝕄)
      = iprop((bigSep Finset.univ fun p : Wk => o0Loc d ↦[(rE (Lp p)).set]{fullShare} f)
          ∗ (bigSep Finset.univ fun p : Wk => o0Loc d ↦[(rT (Lp p)).set]{fullShare} f)
          ∗ bigSep Finset.univ fun p : Wk => o0Loc d ↦[setR (Lp p)]{fullShare} f) := by
  rw [three_way (ℓ := o0Loc d) UE UT UR disj_E_TR disj_T_R coverB f]
  unfold UE UT UR
  rw [pointsTo_biUnion Finset.univ (ℓ := o0Loc d) (fun p : Wk => (rE (Lp p)).set) disjE,
    pointsTo_biUnion Finset.univ (ℓ := o0Loc d) (fun p : Wk => (rT (Lp p)).set) disjT,
    pointsTo_biUnion Finset.univ (ℓ := o0Loc d) (fun p : Wk => setR (Lp p)) disjR]
theorem split_o1 (f : Buf (Elt F) (o1Loc d)) :
    (o1Loc d ↦[Finset.univ]{fullShare} f : sProp 𝕄)
      = iprop((bigSep Finset.univ fun p : Wk => o1Loc d ↦[(rE (Lp p)).set]{fullShare} f)
          ∗ (bigSep Finset.univ fun p : Wk => o1Loc d ↦[(rT (Lp p)).set]{fullShare} f)
          ∗ bigSep Finset.univ fun p : Wk => o1Loc d ↦[setR (Lp p)]{fullShare} f) := by
  rw [three_way (ℓ := o1Loc d) UE UT UR disj_E_TR disj_T_R coverB f]
  unfold UE UT UR
  rw [pointsTo_biUnion Finset.univ (ℓ := o1Loc d) (fun p : Wk => (rE (Lp p)).set) disjE,
    pointsTo_biUnion Finset.univ (ℓ := o1Loc d) (fun p : Wk => (rT (Lp p)).set) disjT,
    pointsTo_biUnion Finset.univ (ℓ := o1Loc d) (fun p : Wk => setR (Lp p)) disjR]
/-- A bank itself: its first 16384 rows stay with the TensorCore, no worker reads them. -/
theorem split_a2 (f : Buf (Elt F) (a2Loc d)) :
    (a2Loc d ↦[Finset.univ]{fullShare} f : sProp 𝕄)
      = iprop((a2Loc d ↦[UE]{fullShare} f)
          ∗ (bigSep Finset.univ fun p : Wk => a2Loc d ↦[(rT (Lp p)).set]{fullShare} f)
          ∗ bigSep Finset.univ fun p : Wk => a2Loc d ↦[setR (Lp p)]{fullShare} f) := by
  rw [three_way (ℓ := a2Loc d) UE UT UR disj_E_TR disj_T_R coverB f]
  unfold UT UR
  rw [pointsTo_biUnion Finset.univ (ℓ := a2Loc d) (fun p : Wk => (rT (Lp p)).set) disjT,
    pointsTo_biUnion Finset.univ (ℓ := a2Loc d) (fun p : Wk => setR (Lp p)) disjR]
theorem split_a3 (f : Buf (Elt F) (a3Loc d)) :
    (a3Loc d ↦[Finset.univ]{fullShare} f : sProp 𝕄)
      = iprop((a3Loc d ↦[UE]{fullShare} f)
          ∗ (bigSep Finset.univ fun p : Wk => a3Loc d ↦[(rT (Lp p)).set]{fullShare} f)
          ∗ bigSep Finset.univ fun p : Wk => a3Loc d ↦[setR (Lp p)]{fullShare} f) := by
  rw [three_way (ℓ := a3Loc d) UE UT UR disj_E_TR disj_T_R coverB f]
  unfold UT UR
  rw [pointsTo_biUnion Finset.univ (ℓ := a3Loc d) (fun p : Wk => (rT (Lp p)).set) disjT,
    pointsTo_biUnion Finset.univ (ℓ := a3Loc d) (fun p : Wk => setR (Lp p)) disjR]
theorem split_a0 (f : Buf (Elt F) (a0Loc d)) :
    (a0Loc d ↦[Finset.univ]{fullShare} f : sProp 𝕄) = bigSep Finset.univ fun p : Wk => a0Loc d ↦[(rS (Lp p)).set]{fullShare} f := by
  rw [← pointsTo_biUnion Finset.univ (ℓ := a0Loc d) (fun p : Wk => (rS (Lp p)).set) disjS, coverS]
theorem split_a1 (f : Buf (Elt F) (a1Loc d)) :
    (a1Loc d ↦[Finset.univ]{fullShare} f : sProp 𝕄) = bigSep Finset.univ fun p : Wk => a1Loc d ↦[(rS (Lp p)).set]{fullShare} f := by
  rw [← pointsTo_biUnion Finset.univ (ℓ := a1Loc d) (fun p : Wk => (rS (Lp p)).set) disjS, coverS]

end Cert.Proof.KernelIdealRun

end
-- ==== Proof.KernelIdealLaunch.lean ====
import proofs.«210836_g79860621902670_cont_9to1_m_360_5_alg».proof.Proof.KernelIdealBody
import proofs.«210836_g79860621902670_cont_9to1_m_360_5_alg».proof.Proof.KernelIdealCover

/-!
  The program's run. The TensorCore starts the SparseCores with the six arrays cut into the workers'
  pieces (the first 16384 rows of the two banks, which no worker reads, stay behind), every vector
  subcore runs its task, and the pieces come back: the inputs as they were, every piece of the two
  outputs holding the updated bank. The pieces tile the outputs, so the outputs end WHOLE at the
  updated banks, and the four inputs end unchanged.
-/

noncomputable section

namespace Cert.Proof.KernelIdealRun

open Cert.KernelIdeal Cert.KernelIdeal.Gen Cert.Proof.BankSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry -/

/-- The call hands SparseCore `c` the pieces of its sixteen workers, outputs at the launch contents, and takes them back with
    the outputs' pieces at the updated banks; a worker is handed its own. -/
def P : (K (F := F)).Pay (nD := nD) (Val := Elt F) (Name := ℕ) (U := UU) where
  st := fun q d c => match q with
    | 0 => bigSep Finset.univ fun i : Fin 16 => res m d (Lp (Fin.cast nCore_zero c, i)) (m (o0Loc d)) (m (o1Loc d))
  dn := fun q d c => match q with
    | 0 => bigSep Finset.univ fun i : Fin 16 => res m d (Lp (Fin.cast nCore_zero c, i)) (G0 m d) (G1 m d)
  go := fun q d c i => match q with
    | 0 => res m d (Lp (Fin.cast nCore_zero c, Fin.cast nSub_zero i)) (m (o0Loc d)) (m (o1Loc d))
  td := fun q d c i => match q with
    | 0 => res m d (Lp (Fin.cast nCore_zero c, Fin.cast nSub_zero i)) (G0 m d) (G1 m d)
  x := fun _ _ => iprop(emp)

instance P_storable : (P (F := F) m).IsStorable where
  st q d c := match q with
    | 0 => (inferInstance : BI.Storable (upEmb : UEmb _ 𝕄) (bigSep Finset.univ fun i : Fin 16 => res m d (Lp (Fin.cast nCore_zero c, i)) (m (o0Loc d)) (m (o1Loc d))))
  dn q d c := match q with
    | 0 => (inferInstance : BI.Storable (upEmb : UEmb _ 𝕄) (bigSep Finset.univ fun i : Fin 16 => res m d (Lp (Fin.cast nCore_zero c, i)) (G0 m d) (G1 m d)))
  go q d c i := match q with
    | 0 => (inferInstance : BI.Storable (upEmb : UEmb _ 𝕄) (res m d (Lp (Fin.cast nCore_zero c, Fin.cast nSub_zero i)) (m (o0Loc d)) (m (o1Loc d))))
  td q d c i := match q with
    | 0 => (inferInstance : BI.Storable (upEmb : UEmb _ 𝕄) (res m d (Lp (Fin.cast nCore_zero c, Fin.cast nSub_zero i)) (G0 m d) (G1 m d)))

/-! ## The launch theorem's obligations -/

theorem defs₀_vector (c : Fin τ.nSC) (s : Fin τ.nSub) :
    defs₀ (F := F) (.scVector c s) 0 ()
      = SparseCore.onTile hcore0 hsub0 (fun c s => cc0__bank_update (coordsV c s)
          A0 (Memref.isWhole_whole _) A1 (Memref.isWhole_whole _) A2 (Memref.isWhole_whole _) A3 (Memref.isWhole_whole _)
          O0 (Memref.isWhole_whole _) O1 (Memref.isWhole_whole _) cc0_scratch0 cc0_scratch1 cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => res m d (Lp (Fin.cast nCore_zero c, i)) (m (o0Loc d)) (m (o1Loc d))) ⊢ |={Set.univ}=> iprop(
      (bigSep Finset.univ fun i : Fin ((K (F := F)).nSub 0) => res m d (Lp (Fin.cast nCore_zero c, Fin.cast nSub_zero i)) (m (o0Loc d)) (m (o1Loc d)))
      ∗ ((bigSep Finset.univ fun i : Fin ((K (F := F)).nSub 0) => res m d (Lp (Fin.cast nCore_zero c, Fin.cast nSub_zero i)) (G0 m d) (G1 m d))
          -∗ bigSep Finset.univ fun i : Fin 16 => res m d (Lp (Fin.cast nCore_zero c, i)) (G0 m d) (G1 m d)))
  rw [bigSep_tasks (F := F) (fun i => res m d (Lp (Fin.cast nCore_zero c, i)) (m (o0Loc d)) (m (o1Loc d))),
    bigSep_tasks (F := F) (fun i => res m d (Lp (Fin.cast nCore_zero c, i)) (G0 m d) (G1 m d))]
  iintro H; imodintro
  isplitl [H]; · iexact H
  iintro H; iexact H

/-! ## The launch element: the handshakes' rounds; the transfers' counters are found by the copies themselves -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((a0Loc d ↦[Finset.univ]{fullShare} W main_arg0) ∗ (a1Loc d ↦[Finset.univ]{fullShare} W main_arg1)
      ∗ (a2Loc d ↦[Finset.univ]{fullShare} W main_arg2) ∗ (a3Loc d ↦[Finset.univ]{fullShare} W main_arg3)
      ∗ (o0Loc d ↦[Finset.univ]{fullShare} W main_v0_0) ∗ o1Loc d ↦[Finset.univ]{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

/-- All the workers' pieces, family by family. -/
def pieces (d : Dev nD) (g0 : Buf (Elt F) (o0Loc d)) (g1 : Buf (Elt F) (o1Loc d)) : sProp 𝕄 :=
  iprop((bigSep Finset.univ fun p : Wk => a0Loc d ↦[(rS (Lp p)).set]{fullShare} m (a0Loc d))
    ∗ (bigSep Finset.univ fun p : Wk => a1Loc d ↦[(rS (Lp p)).set]{fullShare} m (a1Loc d))
    ∗ (bigSep Finset.univ fun p : Wk => a2Loc d ↦[(rT (Lp p)).set]{fullShare} m (a2Loc d))
    ∗ (bigSep Finset.univ fun p : Wk => a3Loc d ↦[(rT (Lp p)).set]{fullShare} m (a3Loc d))
    ∗ (bigSep Finset.univ fun p : Wk => a2Loc d ↦[setR (Lp p)]{fullShare} m (a2Loc d))
    ∗ (bigSep Finset.univ fun p : Wk => a3Loc d ↦[setR (Lp p)]{fullShare} m (a3Loc d))
    ∗ (bigSep Finset.univ fun p : Wk => o0Loc d ↦[(rE (Lp p)).set]{fullShare} g0)
    ∗ (bigSep Finset.univ fun p : Wk => o1Loc d ↦[(rE (Lp p)).set]{fullShare} g1)
    ∗ (bigSep Finset.univ fun p : Wk => o0Loc d ↦[(rT (Lp p)).set]{fullShare} g0)
    ∗ (bigSep Finset.univ fun p : Wk => o1Loc d ↦[(rT (Lp p)).set]{fullShare} g1)
    ∗ (bigSep Finset.univ fun p : Wk => o0Loc d ↦[setR (Lp p)]{fullShare} g0)
    ∗ (bigSep Finset.univ fun p : Wk => o1Loc d ↦[setR (Lp p)]{fullShare} g1))

theorem pieces_eq (d : Dev nD) (g0 : Buf (Elt F) (o0Loc d)) (g1 : Buf (Elt F) (o1Loc d)) :
    (bigSep Finset.univ fun p : Wk => res m d (Lp p) g0 g1) = pieces m d g0 g1 := by
  unfold res pieces
  rw [bigSep_sep', bigSep_sep', bigSep_sep', bigSep_sep', bigSep_sep', bigSep_sep', bigSep_sep', bigSep_sep', bigSep_sep', bigSep_sep', bigSep_sep']

theorem cores_eq (d : Dev nD) (g0 : Buf (Elt F) (o0Loc d)) (g1 : Buf (Elt F) (o1Loc d)) :
    (bigSep Finset.univ fun c : Fin ((K (F := F)).nCore 0) => bigSep Finset.univ fun i : Fin 16 => res m d (Lp (Fin.cast nCore_zero c, i)) g0 g1)
      = pieces m d g0 g1 := by
  rw [← pieces_eq, bigSep_univ_prod (fun p : Wk => res m d (Lp p) g0 g1)]
  exact bigSep_congr fun _ _ => rfl

theorem st0_eq (d : Dev nD) : (bigSep Finset.univ fun c : Fin ((K (F := F)).nCore 0) => (P m).st 0 d c) = pieces m d (m (o0Loc d)) (m (o1Loc d)) :=
  cores_eq m d _ _
theorem dn0_eq (d : Dev nD) : (bigSep Finset.univ fun c : Fin ((K (F := F)).nCore 0) => (P m).dn 0 d c) = pieces m d (G0 m d) (G1 m d) :=
  cores_eq m d _ _

/-- What @main leaves the claim: the four inputs at their launch contents, the two outputs at the updated banks. -/
abbrev FIN (d : Dev nD) : sProp 𝕄 :=
  iprop((a0Loc d ↦[Finset.univ]{fullShare} m (a0Loc d)) ∗ (a1Loc d ↦[Finset.univ]{fullShare} m (a1Loc d))
    ∗ (a2Loc d ↦[Finset.univ]{fullShare} m (a2Loc d)) ∗ (a3Loc d ↦[Finset.univ]{fullShare} m (a3Loc d))
    ∗ (o0Loc d ↦[Finset.univ]{fullShare} G0 m d) ∗ o1Loc d ↦[Finset.univ]{fullShare} G1 m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ho0, Ho1⟩, -, -⟩, -⟩
  ihave Ha0 := (Entails.of_eq (split_a0 (F := F) d _)) $$ Ha0
  ihave Ha1 := (Entails.of_eq (split_a1 (F := F) d _)) $$ Ha1
  ihave Ha2 := (Entails.of_eq (split_a2 (F := F) d _)) $$ Ha2
  ihave Ha3 := (Entails.of_eq (split_a3 (F := F) d _)) $$ Ha3
  ihave Ho0 := (Entails.of_eq (split_o0 (F := F) d _)) $$ Ho0
  ihave Ho1 := (Entails.of_eq (split_o1 (F := F) d _)) $$ Ho1
  icases Ha2 with ⟨Ha2L, Ha2T, Ha2R⟩
  icases Ha3 with ⟨Ha3L, Ha3T, Ha3R⟩
  icases Ho0 with ⟨Ho0E, Ho0T, Ho0R⟩
  icases Ho1 with ⟨Ho1E, Ho1T, Ho1R⟩
  iapply ((K (F := F)).wp_run (D (F := F)) 𝒱 (EH := EH) (P := P m) κ d 0) $$ [Hst Ha0 Ha1 Ha2T Ha3T Ha2R Ha3R Ho0E Ho1E Ho0T Ho1T Ho0R Ho1R Ha2L Ha3L]
  isplitr; · iexact Hctx
  isplitl [Hst]; · iexact Hst
  isplitl [Ha0 Ha1 Ha2T Ha3T Ha2R Ha3R Ho0E Ho1E Ho0T Ho1T Ho0R Ho1R]
  · rw [st0_eq]; unfold pieces
    isplitl [Ha0]; · iexact Ha0
    isplitl [Ha1]; · iexact Ha1
    isplitl [Ha2T]; · iexact Ha2T
    isplitl [Ha3T]; · iexact Ha3T
    isplitl [Ha2R]; · iexact Ha2R
    isplitl [Ha3R]; · iexact Ha3R
    isplitl [Ho0E]; · iexact Ho0E
    isplitl [Ho1E]; · iexact Ho1E
    isplitl [Ho0T]; · iexact Ho0T
    isplitl [Ho1T]; · iexact Ho1T
    isplitl [Ho0R]; · iexact Ho0R
    iexact Ho1R
  iintro ⟨Hst, Hdn⟩
  ihave Hdn' := (Entails.of_eq (dn0_eq m d)) $$ Hdn
  unfold pieces
  icases Hdn' with ⟨Ha0, Ha1, Ha2T, Ha3T, Ha2R, Ha3R, Ho0E, Ho1E, Ho0T, Ho1T, Ho0R, Ho1R⟩
  imodintro
  isplitl [Hst]; · iexact Hst
  isplitl [Ha0]; · iapply (Entails.of_eq (split_a0 (F := F) d _).symm); iexact Ha0
  isplitl [Ha1]; · iapply (Entails.of_eq (split_a1 (F := F) d _).symm); iexact Ha1
  isplitl [Ha2L Ha2T Ha2R]
  · iapply (Entails.of_eq (split_a2 (F := F) d _).symm)
    isplitl [Ha2L]; · iexact Ha2L
    isplitl [Ha2T]; · iexact Ha2T
    iexact Ha2R
  isplitl [Ha3L Ha3T Ha3R]
  · iapply (Entails.of_eq (split_a3 (F := F) d _).symm)
    isplitl [Ha3L]; · iexact Ha3L
    isplitl [Ha3T]; · iexact Ha3T
    iexact Ha3R
  isplitl [Ho0E Ho0T Ho0R]
  · iapply (Entails.of_eq (split_o0 (F := F) d _).symm)
    isplitl [Ho0E]; · iexact Ho0E
    isplitl [Ho0T]; · iexact Ho0T
    iexact Ho0R
  iapply (Entails.of_eq (split_o1 (F := F) d _).symm)
  isplitl [Ho1E]; · iexact Ho1E
  isplitl [Ho1T]; · iexact Ho1T
  iexact Ho1R

def fq (d : Dev nD) (s' : Phys nD τ sig (Elt F)) : Prop :=
  s'.mem.mem (o0Loc d) = G0 m d ∧ s'.mem.mem (o1Loc d) = G1 m d
    ∧ s'.mem.mem (a0Loc d) = m (a0Loc d) ∧ s'.mem.mem (a1Loc d) = m (a1Loc d) ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ha0, Ha1, Ha2, Ha3, Ho0, Ho1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (persistent_entails_right (SI_pointsTo_agree (st := s') (ℓ := o0Loc d) (I := Finset.univ) (q := fullShare) (f := G0 m d))) $$ [HSI Ho0]
  · isplitl [HSI] <;> iassumption
  icases H with ⟨%h4, HSI, -⟩
  ihave H := (SI_pointsTo_agree (st := s') (ℓ := o1Loc d) (I := Finset.univ) (q := fullShare) (f := G1 m d)) $$ [HSI Ho1]
  · isplitl [HSI] <;> iassumption
  icases H with %h5
  ipureintro
  exact ⟨funext fun i => h4 i (Finset.mem_univ i), funext fun i => h5 i (Finset.mem_univ i), funext fun i => h0 i (Finset.mem_univ i),
    funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (o0Loc c) = G0 m c ∧ r.2.mem (o1Loc c) = G1 m c
    ∧ r.2.mem (a0Loc c) = m (a0Loc c) ∧ r.2.mem (a1Loc c) = m (a1Loc c) ∧ r.2.mem (a2Loc c) = m (a2Loc c) ∧ r.2.mem (a3Loc c) = m (a3Loc c)

/-- Every weakly fair execution of the device's threads ends, nothing faulting, with the two results the updated banks and
    the four arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealRun

end
-- ==== Proof.RefValue.lean ====
import proofs.«210836_g79860621902670_cont_9to1_m_360_5_alg».proof.Defs
import proofs.«210836_g79860621902670_cont_9to1_m_360_5_alg».proof.Proof.Gen.ReferenceIdeal.Run
import proofs.«210836_g79860621902670_cont_9to1_m_360_5_alg».proof.Proof.Gen.ReferenceIdeal.Read
import proofs.«210836_g79860621902670_cont_9to1_m_360_5_alg».proof.Proof.BankSpec

/-!
  The reference: each result is `dynamic_update_slice` of a bank by its batch at start indices
  `(0, 0)`. The batch fits at that start, so nothing is clamped: the result is the bank with the batch
  laid over its first 16384 rows.
-/

noncomputable section

namespace Cert.ReferenceIdeal.RefValue

open Cert.ReferenceIdeal Cert.ReferenceIdeal.Gen Idealize.ShloMosaic Cert.Proof.BankSpec

variable {F : FTy → Type} [FloatOps F]

/-- The reference run's term for either result is the updated bank. -/
theorem result_eq (x : (⟨S100000x128, .f32⟩ : BufTy).Contents (Elt F)) (u : (⟨S16384x128, .f32⟩ : BufTy).Contents (Elt F)) :
    Host.dynamicUpdateSlice x u (fun k => (((![constantI S_ 32 0#32, constantI S_ 32 0#32] : Fin 2 → (⟨S_, .i32⟩ : BufTy).Contents (Elt F))) k (Shape.Idx.first h_S_)).toInt)
        updateFits_S100000x128_S16384x128
      = bankUpdate x u :=
  dynamicUpdateSlice_zero x u _ (fun a => by
    match a with
    | ⟨0, _⟩ => rfl
    | ⟨1, _⟩ => rfl) _

end Cert.ReferenceIdeal.RefValue

end
-- ==== Proof.lean ====
/-
  The bank update on the SparseCore against `dynamic_update_slice` on the host.

  The kernel: thirty-two vector subcores, worker `w = 2·s + c`, each copy HBM to HBM on a semaphore of its own:
  rows `512·w …` of each batch onto the same rows of its output; rows `16384 + 2608·w …` of each bank onto the same
  rows of its output; and, for `w < 20`, rows `99840 + 8·w …` likewise. The pieces tile rows `0 … 99999`, so each
  output ends as its bank with the batch laid over rows `0 … 16383`: `bankUpdate bank batch`. The reference is
  `dynamic_update_slice bank batch (0, 0)`, which is that function (nothing is clamped). Pure data movement: no
  arithmetic on the values, so the precondition is never opened, and the word-level kernel's run is the same
  proof read at the other instance.

  The three frames are the runs with the values dropped; the idealization rewrote nothing, so `preserves` is trivial;
  `algebraic` pairs the idealized kernel's run with the reference's generated run through the one function.
-/
import proofs.«210836_g79860621902670_cont_9to1_m_360_5_alg».proof.Defs
import proofs.«210836_g79860621902670_cont_9to1_m_360_5_alg».proof.Proof.Gen.Kernel
import proofs.«210836_g79860621902670_cont_9to1_m_360_5_alg».proof.Proof.Gen.Kernel.Skeleton
import proofs.«210836_g79860621902670_cont_9to1_m_360_5_alg».proof.Proof.Gen.KernelIdeal
import proofs.«210836_g79860621902670_cont_9to1_m_360_5_alg».proof.Proof.Gen.KernelIdeal.Skeleton
import proofs.«210836_g79860621902670_cont_9to1_m_360_5_alg».proof.Proof.Gen.ReferenceIdeal
import proofs.«210836_g79860621902670_cont_9to1_m_360_5_alg».proof.Proof.Gen.ReferenceIdeal.Run
import proofs.«210836_g79860621902670_cont_9to1_m_360_5_alg».proof.Proof.Gen.ReferenceIdeal.Read
import proofs.«210836_g79860621902670_cont_9to1_m_360_5_alg».proof.Proof.Gen.Pre_finite_inputs
import proofs.«210836_g79860621902670_cont_9to1_m_360_5_alg».proof.Proof.KernelLaunch
import proofs.«210836_g79860621902670_cont_9to1_m_360_5_alg».proof.Proof.KernelIdealLaunch
import proofs.«210836_g79860621902670_cont_9to1_m_360_5_alg».proof.Proof.RefValue
import Idealize.ShloMosaic.Adequacy
import Idealize.ShloMosaic.Init

noncomputable section

namespace Cert.Proof

open Idealize.ShloMosaic Idealize.SL.Sem

namespace Claims

theorem frame_k : Cert.frame_Kernel := fun m ρ _ =>
  (θ_run Cert.Kernel.defs _ _).mono (fun _ h c => (h c).2.2) (Cert.Proof.KernelRun.run_main (F := Bits) m ρ)

theorem frame_ki : Cert.frame_KernelIdeal := fun m ρ _ =>
  (θ_run Cert.KernelIdeal.defs _ _).mono (fun _ h c => (h c).2.2) (Cert.Proof.KernelIdealRun.run_main (F := Ideal) m ρ)

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with each result at `bankUpdate bank batch` of arguments that agree. -/
theorem algebraic : Cert.algebraic_KernelIdeal_ReferenceIdeal := by
  intro m ρ m' ρ' _ hagree
  refine ⟨fun c => Cert.Proof.KernelIdealRun.G0 m c, fun c => Cert.Proof.KernelIdealRun.G1 m c,
    (θ_run Cert.KernelIdeal.defs _ _).mono (fun _ h c => h c) (Cert.Proof.KernelIdealRun.run_main (F := Ideal) m ρ), ?_⟩
  refine (θ_run Cert.ReferenceIdeal.defs _ _).mono (fun _ h c => ⟨?_, ?_, (h c).2.2⟩) (Cert.ReferenceIdeal.Value.run (F := Ideal) m' ρ')
  · exact (h c).1.trans ((Cert.ReferenceIdeal.RefValue.result_eq (F := Ideal) _ _).trans
      (congrArg₂ Cert.Proof.BankSpec.bankUpdate (hagree c).2.2.1 (hagree c).1))
  · exact (h c).2.1.trans ((Cert.ReferenceIdeal.RefValue.result_eq (F := Ideal) _ _).trans
      (congrArg₂ Cert.Proof.BankSpec.bankUpdate (hagree c).2.2.2 (hagree c).2.1))

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
